-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x512x64 : Shape := ⟨3, ![16, 512, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S16x512x64 : S_.BroadcastsInDim S16x512x64 (![] : Fin 0 → Fin S16x512x64.rank)
  reducesTo_S16x512x64_S_d0_1_2 : S16x512x64.ReducesTo [0, 1, 2] S_

variable [Facts]

def fn {F : FTy → Type} [FloatOps F] (main_arg0 : FVec F S16x512x64x64 .f32) (main_arg1 : FVec F S16x512x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64 .f32 := Host.absf main_arg1
  let main_cst_0 : FVec F S_ .f32 := constant S_ .f32 0x7F800000#32
  let main_v5 : FVec F S16x512x64 .f32 := broadcastInDim S16x512x64 ![] bcast_S_S16x512x64 main_cst_0
  let main_v6 : IVec S16x512x64 1 := cmpf .olt main_v4 main_v5
  let main_c_1 : IVec S_ 1 := constantI S_ 1 1#1
  let main_v7 : IVec S_ 1 := (fun x v => Host.reduce IntOp.andi x v reducesTo_S16x512x64_S_d0_1_2 h_S_) main_v6 main_c_1
  let main_v8 : IVec S_ 1 := andi main_v3 main_v7
  main_v8
-- ==== Kernel.lean ====
abbrev S16x512x64x64 : Shape := ⟨4, ![16, 512, 64, 64]⟩
abbrev S16x512x64 : Shape := ⟨3, ![16, 512, 64]⟩
abbrev S16x512x4096 : Shape := ⟨3, ![16, 512, 4096]⟩
abbrev S1x512x4096 : Shape := ⟨3, ![1, 512, 4096]⟩
abbrev S1x512x64 : Shape := ⟨3, ![1, 512, 64]⟩
abbrev S64x512 : Shape := ⟨2, ![64, 512]⟩
abbrev S64x4096 : Shape := ⟨2, ![64, 4096]⟩
abbrev S512x64 : Shape := ⟨2, ![512, 64]⟩
abbrev S512x4096 : Shape := ⟨2, ![512, 4096]⟩
abbrev S4096 : Shape := ⟨1, ![4096]⟩
abbrev S1x4096 : Shape := ⟨2, ![1, 4096]⟩
abbrev S64x64 : Shape := ⟨2, ![64, 64]⟩

abbrev nBuf : Space → Nat
  | .hbm => 6
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S16x512x64, .f32⟩
  | .hbm, ⟨2, _⟩ => ⟨S16x512x4096, .f32⟩
  | .hbm, ⟨3, _⟩ => ⟨S16x512x4096, .bf16⟩
  | .hbm, ⟨4, _⟩ => ⟨S16x512x4096, .f32⟩
  | .hbm, ⟨5, _⟩ => ⟨S16x512x64x64, .f32⟩
  | .local _ .vmem, ⟨0, _⟩ => ⟨S1x512x4096, .bf16⟩
  | .local _ .vmem, ⟨1, _⟩ => ⟨S1x512x4096, .bf16⟩
  | .local _ .vmem, ⟨2, _⟩ => ⟨S1x512x64, .f32⟩
  | .local _ .vmem, ⟨3, _⟩ => ⟨S1x512x64, .f32⟩
  | .local _ .vmem, ⟨4, _⟩ => ⟨S1x512x4096, .f32⟩
  | .local _ .vmem, ⟨5, _⟩ => ⟨S1x512x4096, .f32⟩
  | .local _ .vmem, ⟨6, _⟩ => ⟨S64x512, .f32⟩
  | .local _ .vmem, ⟨7, _⟩ => ⟨S64x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c7_i32 : BitVec 32 := 7#32
  let v25 : BitVec 32 := Scalar.addi c0_i32 c7_i32
  let c1_i32 : BitVec 32 := 1#32
  ⟨c0_i32, v25, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S16x512x4096 : S16x512x64x64.ShapeCasts S16x512x4096
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S64x4096_S4096 : S64x4096.Reduces [0] S4096
  shapeCasts_S4096_S1x4096 : S4096.ShapeCasts S1x4096
  broadcasts_S1x4096_S64x4096 : S1x4096.Broadcasts S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S512x4096_S1x512x4096 : S512x4096.ShapeCasts S1x512x4096
  shapeCasts_S16x512x4096_S16x512x64x64 : S16x512x4096.ShapeCasts S16x512x64x64
  dot_S64x512_S512x4096_S64x4096_1_0_0_1_n_n_wf : DotDims.WF S64x512 S512x4096 S64x4096 [1] [0] [0] [1] [] []
  dot_S64x512_S64x512_S64x64_1_1_0_0_n_n_wf : DotDims.WF S64x512 S64x512 S64x64 [1] [1] [0] [0] [] []
  dot_S64x64_S64x4096_S64x4096_1_0_0_1_n_n_wf : DotDims.WF S64x64 S64x4096 S64x4096 [1] [0] [0] [1] [] []
  dot_S64x4096_S512x4096_S64x512_1_1_0_0_n_n_wf : DotDims.WF S64x4096 S512x4096 S64x512 [1] [1] [0] [0] [] []
  dot_S64x4096_S64x4096_S64x64_1_1_0_0_n_n_wf : DotDims.WF S64x4096 S64x4096 S64x64 [1] [1] [0] [0] [] []
  dot_S64x64_S64x512_S64x512_1_0_0_1_n_n_wf : DotDims.WF S64x64 S64x512 S64x512 [1] [0] [0] [1] [] []
  dot_S64x512_S64x4096_S512x4096_0_0_1_1_n_n_wf : DotDims.WF S64x512 S64x4096 S512x4096 [0] [0] [1] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .bf16 = 32 ∨ (Rect.block (s := S16x512x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x512x64.size a
  hwx0_1 : ∀ i : grid0.Coords, EltTy.bits .f32 = 32 ∨ (Rect.block (s := S16x512x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S16x512x4096.size a
  hwx0_2 : ∀ i : grid0.Coords, EltTy.bits .f32 = 32 ∨ (Rect.block (s := S16x512x4096) S1x512x4096.size (cc0_transform_2 i) (hinb0_2 i)).WholeWords (EltTy.packing .f32)

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S64x512_S64x512_S64x64_1_1_0_0_n_n : DotDims S64x512 S64x512 S64x64 where
  lhsContracting := [1]
  rhsContracting := [1]
  lhsNonContracting := [0]
  rhsNonContracting := [0]
  lhsBatch := []
  rhsBatch := []
  wf := dot_S64x512_S64x512_S64x64_1_1_0_0_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S64x512_S64x4096_S512x4096_0_0_1_1_n_n : DotDims S64x512 S64x4096 S512x4096 where
  lhsContracting := [0]
  rhsContracting := [0]
  lhsNonContracting := [1]
  rhsNonContracting := [1]
  lhsBatch := []
  rhsBatch := []
  wf := dot_S64x512_S64x4096_S512x4096_0_0_1_1_n_n_wf

abbrev win0_0 : Pipeline.Window sig grid0 :=
  Pipeline.Window.ofSpec (Memref.whole main_v1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x64 : Shape := ⟨3, ![16, 512, 64]⟩
abbrev S16x512x4096 : Shape := ⟨3, ![16, 512, 4096]⟩
abbrev S16x4096x64 : Shape := ⟨3, ![16, 4096, 64]⟩
abbrev S_ : Shape := ⟨0, ![]⟩
abbrev S16x4096 : Shape := ⟨2, ![16, 4096]⟩
abbrev S16x4096x1 : Shape := ⟨3, ![16, 4096, 1]⟩
abbrev S16x64x64 : Shape := ⟨3, ![16, 64, 64]⟩

abbrev nBuf : Space → Nat
  | .hbm => 143
  | .vmem => 0
  | .smem => 0
  | _ => 0

abbrev hbmTy0_0 (i : Nat) : BufTy := match i % 128 with
  | 0 => ⟨S16x512x64x64, .f32⟩
  | 1 => ⟨S16x512x64, .f32⟩
  | 2 => ⟨S16x512x4096, .f32⟩
  | 3 => ⟨S16x4096x64, .f32⟩
  | 4 => ⟨S_, .f32⟩
  | 5 => ⟨S16x4096x64, .f32⟩
  | 6 => ⟨S16x4096x64, .f32⟩
  | 7 => ⟨S_, .f32⟩
  | 8 => ⟨S16x4096, .f32⟩
  | 9 => ⟨S_, .f32⟩
  | 10 => ⟨S16x4096, .f32⟩
  | 11 => ⟨S16x4096, .f32⟩
  | 12 => ⟨S16x4096x1, .f32⟩
  | 13 => ⟨S16x4096x64, .f32⟩
  | 14 => ⟨S16x4096x64, .f32⟩
  | 15 => ⟨S16x4096x64, .f32⟩
  | 16 => ⟨S_, .f32⟩
  | 17 => ⟨S16x4096, .f32⟩
  | 18 => ⟨S16x4096x1, .f32⟩
  | 19 => ⟨S16x4096x64, .f32⟩
  | 20 => ⟨S16x4096x64, .f32⟩
  | 21 => ⟨S16x4096x64, .f32⟩
  | 22 => ⟨S16x64x64, .f32⟩
  | 23 => ⟨S16x4096x64, .f32⟩
  | 24 => ⟨S16x4096x64, .f32⟩
  | 25 => ⟨S_, .f32⟩
  | 26 => ⟨S16x4096x64, .f32⟩
  | 27 => ⟨S16x4096x64, .f32⟩
  | 28 => ⟨S16x4096x64, .f32⟩
  | 29 => ⟨S16x512x64, .f32⟩
  | 30 => ⟨S16x64x64, .f32⟩
  | 31 => ⟨S16x512x64, .f32⟩
  | 32 => ⟨S16x512x64, .f32⟩
  | 33 => ⟨S_, .f32⟩
  | 34 => ⟨S16x512x64, .f32⟩
  | 35 => ⟨S16x512x64, .f32⟩
  | 36 => ⟨S16x512x64, .f32⟩
  | 37 => ⟨S16x4096x64, .f32⟩
  | 38 => ⟨S16x64x64, .f32⟩
  | 39 => ⟨S16x4096x64, .f32⟩
  | 40 => ⟨S16x4096x64, .f32⟩
  | 41 => ⟨S_, .f32⟩
  | 42 => ⟨S16x4096x64, .f32⟩
  | 43 => ⟨S16x4096x64, .f32⟩
  | 44 => ⟨S16x4096x64, .f32⟩
  | 45 => ⟨S16x512x64, .f32⟩
  | 46 => ⟨S16x64x64, .f32⟩
  | 47 => ⟨S16x512x64, .f32⟩
  | 48 => ⟨S16x512x64, .f32⟩
  | 49 => ⟨S_, .f32⟩
  | 50 => ⟨S16x512x64, .f32⟩
  | 51 => ⟨S16x512x64, .f32⟩
  | 52 => ⟨S16x512x64, .f32⟩
  | 53 => ⟨S16x4096x64, .f32⟩
  | 54 => ⟨S16x64x64, .f32⟩
  | 55 => ⟨S16x4096x64, .f32⟩
  | 56 => ⟨S16x4096x64, .f32⟩
  | 57 => ⟨S_, .f32⟩
  | 58 => ⟨S16x4096x64, .f32⟩
  | 59 => ⟨S16x4096x64, .f32⟩
  | 60 => ⟨S16x4096x64, .f32⟩
  | 61 => ⟨S16x512x64, .f32⟩
  | 62 => ⟨S16x64x64, .f32⟩
  | 63 => ⟨S16x512x64, .f32⟩
  | 64 => ⟨S16x512x64, .f32⟩
  | 65 => ⟨S_, .f32⟩
  | 66 => ⟨S16x512x64, .f32⟩
  | 67 => ⟨S16x512x64, .f32⟩
  | 68 => ⟨S16x512x64, .f32⟩
  | 69 => ⟨S16x4096x64, .f32⟩
  | 70 => ⟨S16x64x64, .f32⟩
  | 71 => ⟨S16x4096x64, .f32⟩
  | 72 => ⟨S16x4096x64, .f32⟩
  | 73 => ⟨S_, .f32⟩
  | 74 => ⟨S16x4096x64, .f32⟩
  | 75 => ⟨S16x4096x64, .f32⟩
  | 76 => ⟨S16x4096x64, .f32⟩
  | 77 => ⟨S16x512x64, .f32⟩
  | 78 => ⟨S16x64x64, .f32⟩
  | 79 => ⟨S16x512x64, .f32⟩
  | 80 => ⟨S16x512x64, .f32⟩
  | 81 => ⟨S_, .f32⟩
  | 82 => ⟨S16x512x64, .f32⟩
  | 83 => ⟨S16x512x64, .f32⟩
  | 84 => ⟨S16x512x64, .f32⟩
  | 85 => ⟨S16x4096x64, .f32⟩
  | 86 => ⟨S16x64x64, .f32⟩
  | 87 => ⟨S16x4096x64, .f32⟩
  | 88 => ⟨S16x4096x64, .f32⟩
  | 89 => ⟨S_, .f32⟩
  | 90 => ⟨S16x4096x64, .f32⟩
  | 91 => ⟨S16x4096x64, .f32⟩
  | 92 => ⟨S16x4096x64, .f32⟩
  | 93 => ⟨S16x512x64, .f32⟩
  | 94 => ⟨S16x64x64, .f32⟩
  | 95 => ⟨S16x512x64, .f32⟩
  | 96 => ⟨S16x512x64, .f32⟩
  | 97 => ⟨S_, .f32⟩
  | 98 => ⟨S16x512x64, .f32⟩
  | 99 => ⟨S16x512x64, .f32⟩
  | 100 => ⟨S16x512x64, .f32⟩
  | 101 => ⟨S16x4096x64, .f32⟩
  | 102 => ⟨S16x64x64, .f32⟩
  | 103 => ⟨S16x4096x64, .f32⟩
  | 104 => ⟨S16x4096x64, .f32⟩
  | 105 => ⟨S_, .f32⟩
  | 106 => ⟨S16x4096x64, .f32⟩
  | 107 => ⟨S16x4096x64, .f32⟩
  | 108 => ⟨S16x4096x64, .f32⟩
  | 109 => ⟨S16x512x64, .f32⟩
  | 110 => ⟨S16x64x64, .f32⟩
  | 111 => ⟨S16x512x64, .f32⟩
  | 112 => ⟨S16x512x64, .f32⟩
  | 113 => ⟨S_, .f32⟩
  | 114 => ⟨S16x512x64, .f32⟩
  | 115 => ⟨S16x512x64, .f32⟩
  | 116 => ⟨S16x512x64, .f32⟩
  | 117 => ⟨S16x4096x64, .f32⟩
  | 118 => ⟨S16x64x64, .f32⟩
  | 119 => ⟨S16x4096x64, .f32⟩
  | 120 => ⟨S16x4096x64, .f32⟩
  | 121 => ⟨S_, .f32⟩
  | 122 => ⟨S16x4096x64, .f32⟩
  | 123 => ⟨S16x4096x64, .f32⟩
  | 124 => ⟨S16x4096x64, .f32⟩
  | 125 => ⟨S16x512x64, .f32⟩
  | 126 => ⟨S16x64x64, .f32⟩
  | 127 => ⟨S16x512x64, .f32⟩
  | _ => ⟨S16x512x64x64, .f32⟩

abbrev hbmTy0_1 (i : Nat) : BufTy := match i % 128 with
  | 0 => ⟨S16x512x64, .f32⟩
  | 1 => ⟨S_, .f32⟩
  | 2 => ⟨S16x512x64, .f32⟩
  | 3 => ⟨S16x512x64, .f32⟩
  | 4 => ⟨S16x512x64, .f32⟩
  | 5 => ⟨S16x4096x64, .f32⟩
  | 6 => ⟨S16x64x64, .f32⟩
  | 7 => ⟨S16x4096x64, .f32⟩
  | 8 => ⟨S16x4096x64, .f32⟩
  | 9 => ⟨S_, .f32⟩
  | 10 => ⟨S16x4096x64, .f32⟩
  | 11 => ⟨S16x4096x64, .f32⟩
  | 12 => ⟨S16x4096x64, .f32⟩
  | 13 => ⟨S16x512x4096, .f32⟩
  | 14 => ⟨S16x512x64x64, .f32⟩
  | _ => ⟨S16x512x64x64, .f32⟩

abbrev hbmTy (i : Nat) : BufTy := match i / 128 with
  | 0 => hbmTy0_0 i
  | 1 => hbmTy0_1 i
  | _ => ⟨S16x512x64x64, .f32⟩

abbrev bufTy : (tb : Table) → Fin (tcTables nBuf tb) → BufTy
  | .hbm, ⟨i, _⟩ => hbmTy i
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_9 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_11 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_12 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_13 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_14 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_15 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_16 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_17 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  bcast_S_S16x4096x64 : S_.BroadcastsInDim S16x4096x64 (![] : Fin 0 → Fin S16x4096x64.rank)
  reducesTo_S16x4096x64_S16x4096_d2 : S16x4096x64.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  bcast_S_S16x512x64 : S_.BroadcastsInDim S16x512x64 (![] : Fin 0 → Fin S16x512x64.rank)
  shapeCasts_S16x512x4096_S16x512x64x64 : S16x512x4096.ShapeCasts S16x512x64x64
  dot_S16x512x4096_S16x512x64_S16x4096x64_1_1_2_2_0_0_wf : DotDims.WF S16x512x4096 S16x512x64 S16x4096x64 [1] [1] [2] [2] [0] [0]
  dot_S16x512x64_S16x512x64_S16x64x64_1_1_2_2_0_0_wf : DotDims.WF S16x512x64 S16x512x64 S16x64x64 [1] [1] [2] [2] [0] [0]
  dot_S16x4096x64_S16x64x64_S16x4096x64_2_1_1_2_0_0_wf : DotDims.WF S16x4096x64 S16x64x64 S16x4096x64 [2] [1] [1] [2] [0] [0]
  dot_S16x512x4096_S16x4096x64_S16x512x64_2_1_1_2_0_0_wf : DotDims.WF S16x512x4096 S16x4096x64 S16x512x64 [2] [1] [1] [2] [0] [0]
  dot_S16x4096x64_S16x4096x64_S16x64x64_1_1_2_2_0_0_wf : DotDims.WF S16x4096x64 S16x4096x64 S16x64x64 [1] [1] [2] [2] [0] [0]
  dot_S16x512x64_S16x64x64_S16x512x64_2_1_1_2_0_0_wf : DotDims.WF S16x512x64 S16x64x64 S16x512x64 [2] [1] [1] [2] [0] [0]
  dot_S16x512x64_S16x4096x64_S16x512x4096_2_2_1_1_0_0_wf : DotDims.WF S16x512x64 S16x4096x64 S16x512x4096 [2] [2] [1] [1] [0] [0]

variable [Facts₀]

def dot_S16x512x4096_S16x512x64_S16x4096x64_1_1_2_2_0_0 : DotDims S16x512x4096 S16x512x64 S16x4096x64 where
  lhsContracting := [1]
  rhsContracting := [1]
  lhsNonContracting := [2]
  rhsNonContracting := [2]
  lhsBatch := [0]
  rhsBatch := [0]
  wf := dot_S16x512x4096_S16x512x64_S16x4096x64_1_1_2_2_0_0_wf
def dot_S16x512x64_S16x512x64_S16x64x64_1_1_2_2_0_0 : DotDims S16x512x64 S16x512x64 S16x64x64 where
  lhsContracting := [1]
  rhsContracting := [1]
  lhsNonContracting := [2]
  rhsNonContracting := [2]
  lhsBatch := [0]
  rhsBatch := [0]
  wf := dot_S16x512x64_S16x512x64_S16x64x64_1_1_2_2_0_0_wf
def dot_S16x4096x64_S16x64x64_S16x4096x64_2_1_1_2_0_0 : DotDims S16x4096x64 S16x64x64 S16x4096x64 where
  lhsContracting := [2]
  rhsContracting := [1]
  lhsNonContracting := [1]
  rhsNonContracting := [2]
  lhsBatch := [0]
  rhsBatch := [0]
  wf := dot_S16x4096x64_S16x64x64_S16x4096x64_2_1_1_2_0_0_wf
def dot_S16x512x4096_S16x4096x64_S16x512x64_2_1_1_2_0_0 : DotDims S16x512x4096 S16x4096x64 S16x512x64 where
  lhsContracting := [2]
  rhsContracting := [1]
  lhsNonContracting := [1]
  rhsNonContracting := [2]
  lhsBatch := [0]
  rhsBatch := [0]
  wf := dot_S16x512x4096_S16x4096x64_S16x512x64_2_1_1_2_0_0_wf
def dot_S16x4096x64_S16x4096x64_S16x64x64_1_1_2_2_0_0 : DotDims S16x4096x64 S16x4096x64 S16x64x64 where
  lhsContracting := [1]
  rhsContracting := [1]
  lhsNonContracting := [2]
  rhsNonContracting := [2]
  lhsBatch := [0]
  rhsBatch := [0]
  wf := dot_S16x4096x64_S16x4096x64_S16x64x64_1_1_2_2_0_0_wf
def dot_S16x512x64_S16x64x64_S16x512x64_2_1_1_2_0_0 : DotDims S16x512x64 S16x64x64 S16x512x64 where
  lhsContracting := [2]
  rhsContracting := [1]
  lhsNonContracting := [1]
  rhsNonContracting := [2]
  lhsBatch := [0]
  rhsBatch := [0]
  wf := dot_S16x512x64_S16x64x64_S16x512x64_2_1_1_2_0_0_wf
def dot_S16x512x64_S16x4096x64_S16x512x4096_2_2_1_1_0_0 : DotDims S16x512x64 S16x4096x64 S16x512x4096 where
  lhsContracting := [2]
  rhsContracting := [2]
  lhsNonContracting := [1]
  rhsNonContracting := [1]
  lhsBatch := [0]
  rhsBatch := [0]
  wf := dot_S16x512x64_S16x4096x64_S16x512x4096_2_2_1_1_0_0_wf

class Facts : Prop extends Facts₀ where

variable [Facts]
-- ==== Proof.LibWholeStore.lean ====
/-
  A buffer that every store overwrites whole: a whole-buffer load reads the last stored value.

  When a store writes through the rectangle that covers a buffer's whole shape (offsets all zero, extents the shape's
  own), whatever the buffer held before, and whatever earlier stores wrote, is gone: the contents read back through the
  same rectangle are exactly the stored value.  This is the reading of a scratch buffer used as a variable — stored
  whole, loaded whole — and it is what lets the contents after a counted loop be stated as the iteration of the
  loop's stores.
-/
import Idealize.ShloMosaic.Lib.Pipeline.Value

noncomputable section

namespace Idealize.ShloMosaic.WholeStore

open Idealize.ShloMosaic

/-- The zero offsets of a rank-2 buffer, as the constant function. -/
theorem zero2 : (![0, 0] : Fin 2 → Nat) = fun _ => 0 := by funext a; fin_cases a <;> rfl
/-- The zero offsets of a rank-3 buffer, as the constant function. -/
theorem zero3 : (![0, 0, 0] : Fin 3 → Nat) = fun _ => 0 := by funext a; fin_cases a <;> rfl

/-- A whole-buffer load after a whole-buffer store reads the stored value, whatever was written before: the last
    piece of the list of stores covers every index, so the contents read through the buffer's view are that piece's
    value, and a load through the whole rectangle reads the contents. -/
theorem readAt_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.readAt Val (Rect.unit off S.size inb).toLoadRect (v.writes Val f (⟨Rect.unit off S.size inb, w⟩ :: L)) = w := by
  rw [View.readAt_eq_ld, View.read_writes_eq_canon _ _ _ (fun y => ⟨_, List.mem_cons_self, View.mem_set_unit_zero h inb y⟩),
    View.canon_cons_unit_zero h, View.ld_unit_zero h]

end Idealize.ShloMosaic.WholeStore

end
-- ==== Proof.KernelRun.lean ====
/-
  What one grid point's body leaves in its output block, read off the body's run.

  The body keeps the transposed bases and the transposed coefficients in two scratch buffers that every store
  overwrites whole.  So after any store a whole-buffer load reads exactly what was stored last, and the contents
  after the counted loop are the seven-fold iteration of one trip's two stores, started from the two stores made
  before the loop.  The output block is the last store's value of those contents.
-/
import proofs.«102053_j12730283065692_2_alg».proof.Proof.Gen.KernelIdeal.Frame
import proofs.«102053_j12730283065692_2_alg».proof.Proof.LibWholeStore
import Idealize.ShloMosaic.Lib.Pipeline.Value

set_option maxRecDepth 16384

noncomputable section

namespace Cert.KernelIdeal.RunValue

open Cert.KernelIdeal Cert.KernelIdeal.Gen Idealize.ShloMosaic Idealize.ShloMosaic.TcCoe Idealize.ShloMosaic.Tactic
open Idealize.SL Idealize.SL.Sem Idealize.ShloMosaic.WholeStore

variable {F : FTy → Type} [FloatOps F]

/-- The transposed bases and coefficients after `k` trips of the loop, as values of the data block `x` and the bases
    block `x1`: the two stores before the loop, then per trip the coefficient update of the current pair and the bases
    update with the NEW coefficients. -/
def kst (x : Vec F S1x512x4096 .bf16) (x1 : Vec F S1x512x64 .f32) : ℕ → Vec F S64x512 .f32 × Vec F S64x4096 .f32
  | 0 => (k0_pay5 x1, k0_pay6 x (k0_pay5 x1))
  | k + 1 => (k0_pay4 x (k0_pay3 x (kst x x1 k).1 (kst x x1 k).2 (kst x x1 k).2) (kst x x1 k).1 (kst x x1 k).1,
      k0_pay3 x (kst x x1 k).1 (kst x x1 k).2 (kst x x1 k).2)

theorem kst_zero (x : Vec F S1x512x4096 .bf16) (x1 : Vec F S1x512x64 .f32) :
    kst x x1 0 = (k0_pay5 x1, k0_pay6 x (k0_pay5 x1)) := rfl
theorem kst_succ (x : Vec F S1x512x4096 .bf16) (x1 : Vec F S1x512x64 .f32) (k : ℕ) :
    kst x x1 (k + 1) = (k0_pay4 x (k0_pay3 x (kst x x1 k).1 (kst x x1 k).2 (kst x x1 k).2) (kst x x1 k).1 (kst x x1 k).1,
      k0_pay3 x (kst x x1 k).1 (kst x x1 k).2 (kst x x1 k).2) := rfl

/-- The loop makes seven trips. -/
theorem trips_eq : Scf.trips k0_t1_loop.lb k0_t1_loop.ub k0_t1_loop.st = 7 := by decide

section Body

variable (c : Dev nD) (i : grid0.Coords) (arg1 : Memref sig .tc .vmem S1x512x4096 .bf16) (harg1 : arg1.IsWhole) (arg2 : Memref sig .tc .vmem S1x512x64 .f32) (harg2 : arg2.IsWhole) (arg3 : Memref sig .tc .vmem S1x512x4096 .f32) (harg3 : arg3.IsWhole) (arg4 : Memref sig .tc .vmem S64x512 .f32) (harg4 : arg4.IsWhole) (arg5 : Memref sig .tc .vmem S64x4096 .f32) (harg5 : arg5.IsWhole)

/-- The data block as a whole-buffer load reads it from contents `X`. -/
abbrev rd1 (X : BufTy.Contents (Elt F) arg1.view.ty) : Vec F S1x512x4096 .bf16 :=
  View.readAt (Elt F) arg1.view (Rect.unit ![0, 0, 0] S1x512x4096.size inb_S1x512x4096_S1x512x4096_0_0_0).toLoadRect X
/-- The transposed bases as a whole-buffer load reads them. -/
abbrev rd4 (f : BufTy.Contents (Elt F) arg4.view.ty) : Vec F S64x512 .f32 :=
  View.readAt (Elt F) arg4.view (Rect.unit ![0, 0] S64x512.size inb_S64x512_S64x512_0_0).toLoadRect f
/-- The transposed coefficients as a whole-buffer load reads them. -/
abbrev rd5 (f : BufTy.Contents (Elt F) arg5.view.ty) : Vec F S64x4096 .f32 :=
  View.readAt (Elt F) arg5.view (Rect.unit ![0, 0] S64x4096.size inb_S64x4096_S64x4096_0_0).toLoadRect f

/-- One trip stores the updated coefficients, computed from what the two buffers held, and then the updated bases,
    computed from the NEW coefficients and the old bases. -/
theorem tripL_eq (X : BufTy.Contents (Elt F) arg1.view.ty) (k : Fin k0_t1_loop.trips)
    (f4 : BufTy.Contents (Elt F) arg4.view.ty) (f5 : BufTy.Contents (Elt F) arg5.view.ty) :
    tripL_k0_t1 (F := F) Variants.none c none i arg1 harg1 arg2 harg2 arg3 harg3 arg4 harg4 arg5 harg5 X k f4 f5
      = ([⟨Rect.unit ![0, 0] S64x512.size inb_S64x512_S64x512_0_0,
            k0_pay4 (rd1 arg1 X) (k0_pay3 (rd1 arg1 X) (rd4 arg4 f4) (rd5 arg5 f5) (rd5 arg5 f5)) (rd4 arg4 f4) (rd4 arg4 f4)⟩],
         [⟨Rect.unit ![0, 0] S64x4096.size inb_S64x4096_S64x4096_0_0,
            k0_pay3 (rd1 arg1 X) (rd4 arg4 f4) (rd5 arg5 f5) (rd5 arg5 f5)⟩]) := by
  unfold tripL_k0_t1 trip_k0_t1
  dsimp only
  sl_unfold_words
  rw [View.readCov_unit_zero (S := S64x4096) _ zero2]

/-- THE LOOP: after `k` trips the two buffers, read whole, hold the `k`-th iterate — by induction on the trips, each trip's
    two stores covering their buffers. -/
theorem loop_fold (X : BufTy.Contents (Elt F) arg1.view.ty) (G4 : BufTy.Contents (Elt F) arg4.view.ty) (G5 : BufTy.Contents (Elt F) arg5.view.ty)
    (x : Vec F S1x512x4096 .bf16) (x1 : Vec F S1x512x64 .f32) (hX : rd1 arg1 X = x)
    (h4 : rd4 arg4 G4 = (kst x x1 0).1) (h5 : rd5 arg5 G5 = (kst x x1 0).2) :
    ∀ k, k ≤ k0_t1_loop.trips →
      rd4 arg4 (arg4.view.writes (Elt F) G4 (pb_k0_t1 (F := F) Variants.none c none i arg1 harg1 arg2 harg2 arg3 harg3 arg4 harg4 arg5 harg5 X G4 G5 k).1) = (kst x x1 k).1
      ∧ rd5 arg5 (arg5.view.writes (Elt F) G5 (pb_k0_t1 (F := F) Variants.none c none i arg1 harg1 arg2 harg2 arg3 harg3 arg4 harg4 arg5 harg5 X G4 G5 k).2) = (kst x x1 k).2
  | 0, _ => ⟨h4, h5⟩
  | k + 1, hk => by
    obtain ⟨ih4, ih5⟩ := loop_fold X G4 G5 x x1 hX h4 h5 k (Nat.le_of_succ_le hk)
    have hs := pb_k0_t1_succ (F := F) Variants.none c none i arg1 harg1 arg2 harg2 arg3 harg3 arg4 harg4 arg5 harg5 X G4 G5 ⟨k, hk⟩
    rw [tripL_eq] at hs
    dsimp only at hs
    rw [hs]
    dsimp only [List.singleton_append, List.cons_append, List.nil_append]
    rw [ih4, ih5, hX, kst_succ]
    exact ⟨readAt_writes_whole (S := S64x512) arg4.view G4 zero2 _ _ _, readAt_writes_whole (S := S64x4096) arg5.view G5 zero2 _ _ _⟩

/-- THE OUTPUT BLOCK of one grid point: the reconstruction `k0_pay1` of the pair the loop leaves after its seven
    trips, with the data block read again. -/
theorem out_eq (x0 : Vec F S1x512x4096 .bf16) (x1 : Vec F S1x512x64 .f32) :
    out0_A_2 c i arg1 harg1 arg2 harg2 arg3 harg3 arg4 harg4 arg5 harg5 x0 x1
      = k0_pay1 (kst x0 x1 7).1 (k0_pay7 (kst x0 x1 7).1) (k0_pay8 x0 (kst x0 x1 7).1) (kst x0 x1 7).2 := by
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero (S := S1x512x4096) zero3, View.writes_append, View.writes_append, trips_eq]
  have hx0 : rd1 arg1 (harg1.unread x0) = x0 := by
    rw [rd1, View.readAt_eq_ld, harg1.read_unread, View.ld_unit_zero (S := S1x512x4096) zero3]
  have hx1 : View.readAt (Elt F) arg2.view (Rect.unit ![0, 0, 0] S1x512x64.size inb_S1x512x64_S1x512x64_0_0_0).toLoadRect (harg2.unread x1) = x1 := by
    rw [View.readAt_eq_ld, harg2.read_unread, View.ld_unit_zero (S := S1x512x64) zero3]
  rw [View.readCov_unit_zero (S := S64x512) _ zero2, hx1]
  have h4 : rd4 arg4 (arg4.view.writes (Elt F) arg4.view.junk [⟨Rect.unit ![0, 0] S64x512.size inb_S64x512_S64x512_0_0, k0_pay5 x1⟩]) = (kst x0 x1 0).1 :=
    readAt_writes_whole (S := S64x512) arg4.view _ zero2 _ _ _
  have h5 : rd5 arg5 (arg5.view.writes (Elt F) arg5.view.junk [⟨Rect.unit ![0, 0] S64x4096.size inb_S64x4096_S64x4096_0_0,
      k0_pay6 (rd1 arg1 (harg1.unread x0)) (k0_pay5 x1)⟩]) = (kst x0 x1 0).2 := by
    rw [hx0]; exact readAt_writes_whole (S := S64x4096) arg5.view _ zero2 _ _ _
  obtain ⟨e4, e5⟩ := loop_fold c i arg1 harg1 arg2 harg2 arg3 harg3 arg4 harg4 arg5 harg5 (harg1.unread x0) _ _ x0 x1 hx0 h4 h5 7
    (by rw [show k0_t1_loop.trips = 7 from trips_eq])
  dsimp only [rd1, rd4, rd5] at e4 e5 hx0
  rw [e4, e5, hx0]

end Body

end Cert.KernelIdeal.RunValue

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelContract.lean ====
/-
  The seven matrix products of the factorisation kernel, each read at one entry of its result.

  Every product accumulates into a splat of zeros, so at the extended reals an entry of the result is the plain
  finite sum over the contracted coordinate. Three index patterns occur: rows against columns ("[M,K] by [K,N]"),
  rows against rows (both operands contracted on their last axis), and columns against columns (both contracted
  on their FIRST axis: entry (d, n) of the [64,512] by [64,4096] product is the sum over r of l (r, d) · r (r, n)).
  The first two are instances of the general lemmas of this certificate; the third is proved here by the same steps.
-/
import proofs.«102053_j12730283065692_2_alg».proof.Proof.Gen.KernelIdeal.Skeleton
import proofs.«102053_j12730283065692_2_alg».proof.Proof.LibContractRows
import proofs.«102053_j12730283065692_2_alg».proof.Proof.LibContractPlain
import Idealize.ShloMosaic.Lib.ValueIdx
import Idealize.ShloMosaic.PureOps.Ideal.Laws

noncomputable section

namespace Cert.KernelIdeal.PayValue

open Idealize.ShloMosaic Idealize.ShloMosaic.ValueIdx Cert.KernelIdeal Cert.KernelIdeal.Gen

/-! ## Rows against columns -/

/-- bases (transposed) by the data: entry (r, n) is the sum over d. -/
theorem mm_bt_x {φ₁ φ₂ : FTy} (prec : Option ContractPrecision) (l : FVec Ideal S64x512 φ₁) (r : FVec Ideal S512x4096 φ₂)
    (p : Fin 64) (q : Fin 4096) :
    matmul dot_S64x512_S512x4096_S64x4096_1_0_0_1_n_n prec l r (constant (F := Ideal) S64x4096 .f32 0x00000000#32) (ix2 p q)
      = ∑ c : Fin 512, l (ix2 p c) * r (ix2 c q) :=
  Cert.Lib.ContractPlain.matmulZero_apply _ rfl prec l r p q

/-- A 64 by 64 Gram matrix by the coefficients (transposed): entry (r, n) is the sum over k. -/
theorem mm_g_ct {φ₁ φ₂ : FTy} (prec : Option ContractPrecision) (l : FVec Ideal S64x64 φ₁) (r : FVec Ideal S64x4096 φ₂)
    (p : Fin 64) (q : Fin 4096) :
    matmul dot_S64x64_S64x4096_S64x4096_1_0_0_1_n_n prec l r (constant (F := Ideal) S64x4096 .f32 0x00000000#32) (ix2 p q)
      = ∑ c : Fin 64, l (ix2 p c) * r (ix2 c q) :=
  Cert.Lib.ContractPlain.matmulZero_apply _ rfl prec l r p q

/-- A 64 by 64 Gram matrix by the bases (transposed): entry (r, d) is the sum over k. -/
theorem mm_g_bt {φ₁ φ₂ : FTy} (prec : Option ContractPrecision) (l : FVec Ideal S64x64 φ₁) (r : FVec Ideal S64x512 φ₂)
    (p : Fin 64) (q : Fin 512) :
    matmul dot_S64x64_S64x512_S64x512_1_0_0_1_n_n prec l r (constant (F := Ideal) S64x512 .f32 0x00000000#32) (ix2 p q)
      = ∑ c : Fin 64, l (ix2 p c) * r (ix2 c q) :=
  Cert.Lib.ContractPlain.matmulZero_apply _ rfl prec l r p q

/-! ## Rows against rows -/

/-- The Gram matrix of the bases: entry (r, k) is the sum over d of row r against row k. -/
theorem mm_bt_bt {φ₁ φ₂ : FTy} (prec : Option ContractPrecision) (l : FVec Ideal S64x512 φ₁) (r : FVec Ideal S64x512 φ₂)
    (p : Fin 64) (q : Fin 64) :
    matmul dot_S64x512_S64x512_S64x64_1_1_0_0_n_n prec l r (constant (F := Ideal) S64x64 .f32 0x00000000#32) (ix2 p q)
      = ∑ c : Fin 512, l (ix2 p c) * r (ix2 q c) :=
  ContractRows.matmul_zero_apply prec l r p q

/-- The coefficients (transposed) against the data: entry (r, d) is the sum over n. -/
theorem mm_ct_x {φ₁ φ₂ : FTy} (prec : Option ContractPrecision) (l : FVec Ideal S64x4096 φ₁) (r : FVec Ideal S512x4096 φ₂)
    (p : Fin 64) (q : Fin 512) :
    matmul dot_S64x4096_S512x4096_S64x512_1_1_0_0_n_n prec l r (constant (F := Ideal) S64x512 .f32 0x00000000#32) (ix2 p q)
      = ∑ c : Fin 4096, l (ix2 p c) * r (ix2 q c) :=
  ContractRows.matmul_zero_apply prec l r p q

/-- The Gram matrix of the coefficients: entry (r, k) is the sum over n of row r against row k. -/
theorem mm_ct_ct {φ₁ φ₂ : FTy} (prec : Option ContractPrecision) (l : FVec Ideal S64x4096 φ₁) (r : FVec Ideal S64x4096 φ₂)
    (p : Fin 64) (q : Fin 64) :
    matmul dot_S64x4096_S64x4096_S64x64_1_1_0_0_n_n prec l r (constant (F := Ideal) S64x64 .f32 0x00000000#32) (ix2 p q)
      = ∑ c : Fin 4096, l (ix2 p c) * r (ix2 q c) :=
  ContractRows.matmul_zero_apply prec l r p q

/-! ## Columns against columns: both operands contracted on their first axis -/

/-- The left operand's index takes its column from the output's row. -/
theorem cc_lhs_free (j : S512x4096.Idx) (k : dot_S64x512_S64x4096_S512x4096_0_0_1_1_n_n.contr.Idx) :
    (dot_S64x512_S64x4096_S512x4096_0_0_1_1_n_n.lhsIdx j k 1).val = (j 0).val := by
  unfold DotDims.lhsIdx
  rw [dif_neg (show ¬(1 : Fin S64x512.rank) ∈ dot_S64x512_S64x4096_S512x4096_0_0_1_1_n_n.lhsBatch from List.not_mem_nil),
    dif_pos (show (1 : Fin S64x512.rank) ∈ dot_S64x512_S64x4096_S512x4096_0_0_1_1_n_n.lhsNonContracting from List.mem_singleton.mpr rfl)]
  rfl

/-- The left operand's index runs down its first axis with the contraction. -/
theorem cc_lhs_contr (j : S512x4096.Idx) (k : dot_S64x512_S64x4096_S512x4096_0_0_1_1_n_n.contr.Idx) :
    (dot_S64x512_S64x4096_S512x4096_0_0_1_1_n_n.lhsIdx j k 0).val = (k ⟨0, Nat.zero_lt_one⟩).val :=
  dot_S64x512_S64x4096_S512x4096_0_0_1_1_n_n.lhsIdx_val_of_single rfl j k

/-- The right operand's index takes its column from the output's column. -/
theorem cc_rhs_free (j : S512x4096.Idx) (k : dot_S64x512_S64x4096_S512x4096_0_0_1_1_n_n.contr.Idx) :
    (dot_S64x512_S64x4096_S512x4096_0_0_1_1_n_n.rhsIdx j k 1).val = (j 1).val := by
  unfold DotDims.rhsIdx
  rw [dif_neg (show ¬(1 : Fin S64x4096.rank) ∈ dot_S64x512_S64x4096_S512x4096_0_0_1_1_n_n.rhsBatch from List.not_mem_nil),
    dif_pos (show (1 : Fin S64x4096.rank) ∈ dot_S64x512_S64x4096_S512x4096_0_0_1_1_n_n.rhsNonContracting from List.mem_singleton.mpr rfl)]
  rfl

/-- The right operand's index runs down its first axis with the contraction. -/
theorem cc_rhs_contr (j : S512x4096.Idx) (k : dot_S64x512_S64x4096_S512x4096_0_0_1_1_n_n.contr.Idx) :
    (dot_S64x512_S64x4096_S512x4096_0_0_1_1_n_n.rhsIdx j k 0).val = (k ⟨0, Nat.zero_lt_one⟩).val :=
  dot_S64x512_S64x4096_S512x4096_0_0_1_1_n_n.rhsIdx_val_of_single rfl j k

/-- THE SUM: over the contraction's index it is the sum over r of column d of the left operand against column n of
    the right one. -/
theorem cc_sum (l : S64x512.Idx → EReal) (r : S64x4096.Idx → EReal) (p : Fin 512) (q : Fin 4096) :
    (∑ k : dot_S64x512_S64x4096_S512x4096_0_0_1_1_n_n.contr.Idx,
        l (dot_S64x512_S64x4096_S512x4096_0_0_1_1_n_n.lhsIdx (ix2 p q) k)
          * r (dot_S64x512_S64x4096_S512x4096_0_0_1_1_n_n.rhsIdx (ix2 p q) k))
      = ∑ c : Fin 64, l (ix2 c p) * r (ix2 c q) := by
  rw [← Equiv.sum_comp (contrEquiv1 dot_S64x512_S64x4096_S512x4096_0_0_1_1_n_n 64 rfl rfl).symm]
  refine Finset.sum_congr rfl fun c _ => ?_
  have hk := contrEquiv1_symm_val dot_S64x512_S64x4096_S512x4096_0_0_1_1_n_n 64 rfl rfl c
  have el : dot_S64x512_S64x4096_S512x4096_0_0_1_1_n_n.lhsIdx (ix2 p q)
      ((contrEquiv1 dot_S64x512_S64x4096_S512x4096_0_0_1_1_n_n 64 rfl rfl).symm c) = ix2 c p :=
    funext fun a => Fin.ext (by
      match a with
      | ⟨0, _⟩ => exact (cc_lhs_contr _ _).trans hk
      | ⟨1, _⟩ => exact cc_lhs_free _ _)
  have er : dot_S64x512_S64x4096_S512x4096_0_0_1_1_n_n.rhsIdx (ix2 p q)
      ((contrEquiv1 dot_S64x512_S64x4096_S512x4096_0_0_1_1_n_n 64 rfl rfl).symm c) = ix2 c q :=
    funext fun a => Fin.ext (by
      match a with
      | ⟨0, _⟩ => exact (cc_rhs_contr _ _).trans hk
      | ⟨1, _⟩ => exact cc_rhs_free _ _)
  rw [el, er]

/-- The bases (transposed) against the updated coefficients (transposed), columns against columns: entry (d, n) is
    the sum over r. -/
theorem mm_bt_ct {φ₁ φ₂ : FTy} (prec : Option ContractPrecision) (l : FVec Ideal S64x512 φ₁) (r : FVec Ideal S64x4096 φ₂)
    (p : Fin 512) (q : Fin 4096) :
    matmul dot_S64x512_S64x4096_S512x4096_0_0_1_1_n_n prec l r (constant (F := Ideal) S512x4096 .f32 0x00000000#32) (ix2 p q)
      = ∑ c : Fin 64, l (ix2 c p) * r (ix2 c q) :=
  (Ideal.matmul_constant_zero_apply dot_S64x512_S64x4096_S512x4096_0_0_1_1_n_n prec l r (ix2 p q)).trans (cc_sum l r p q)

end Cert.KernelIdeal.PayValue

end
-- ==== Proof.NmfSpec.lean ====
/-
  The multiplicative-update factorisation both programs compute, stated once over the extended reals.

  One batch element is a matrix `X` (512 channels by 4096 pixels), factored as bases `B` (512 by 64) times
  coefficients `C` (4096 by 64) transposed.  The coefficients start as the row-wise softmax of `Xᵀ B`; then seven
  rounds update first the coefficients, `C ← C ∘ (Xᵀ B) / (C (Bᵀ B) + ε)`, then the bases with the NEW
  coefficients, `B ← B ∘ (X C) / (B (Cᵀ C) + ε)`; a last coefficient update follows, and the result is `B Cᵀ`.
  Every sum is written over the coordinate it runs over, every product in one fixed order; a program that stores a
  matrix transposed, or multiplies the other way round, meets this text by commutativity of the product alone.
-/
import Idealize.ShloMosaic.PureOps.Ideal
import Idealize.ShloMosaic.Lib.ValueIdx

noncomputable section

namespace Cert.NmfSpec

open Idealize.ShloMosaic

/-- The small constant added to every denominator (the same binary word in both programs, never evaluated). -/
abbrev eps : EReal := Ideal.ofBits .f32 0x358637BD#32
/-- The value a running maximum starts from (the word of minus infinity). -/
abbrev negInf : EReal := Ideal.ofBits .f32 0xFF800000#32

/-- The data of one batch element: channel `d`, pixel `n`. -/
abbrev MatX := Fin 512 → Fin 4096 → EReal
/-- Bases: channel `d`, component `r`. -/
abbrev MatB := Fin 512 → Fin 64 → EReal
/-- Coefficients: pixel `n`, component `r`. -/
abbrev MatC := Fin 4096 → Fin 64 → EReal

/-- `Xᵀ B` at pixel `n`, component `r`. -/
def score (X : MatX) (B : MatB) : MatC := fun n r => ∑ d : Fin 512, X d n * B d r

/-- The largest score of pixel `n` over the components. -/
def rowMax (X : MatX) (B : MatB) (n : Fin 4096) : EReal :=
  (Finset.univ : Finset (Fin 64)).fold max negInf (score X B n)

/-- The starting coefficients: the softmax of the scores over the components, the row's maximum subtracted first. -/
def soft (X : MatX) (B : MatB) : MatC := fun n r =>
  Ideal.div (Ideal.exp (score X B n r - rowMax X B n)) (∑ k : Fin 64, Ideal.exp (score X B n k - rowMax X B n))

/-- One update of the coefficients. -/
def coefStep (X : MatX) (B : MatB) (C : MatC) : MatC := fun n r =>
  Ideal.div (C n r * ∑ d : Fin 512, X d n * B d r) ((∑ k : Fin 64, C n k * ∑ d : Fin 512, B d k * B d r) + eps)

/-- One update of the bases. -/
def basesStep (X : MatX) (B : MatB) (C : MatC) : MatB := fun d r =>
  Ideal.div (B d r * ∑ n : Fin 4096, X d n * C n r) ((∑ k : Fin 64, B d k * ∑ n : Fin 4096, C n k * C n r) + eps)

/-- Bases and coefficients after `k` rounds. -/
def state (X : MatX) (B0 : MatB) : ℕ → MatB × MatC
  | 0 => (B0, soft X B0)
  | k + 1 => (basesStep X (state X B0 k).1 (coefStep X (state X B0 k).1 (state X B0 k).2),
      coefStep X (state X B0 k).1 (state X B0 k).2)

theorem state_zero (X : MatX) (B0 : MatB) : state X B0 0 = (B0, soft X B0) := rfl
theorem state_succ (X : MatX) (B0 : MatB) (k : ℕ) :
    state X B0 (k + 1) = (basesStep X (state X B0 k).1 (coefStep X (state X B0 k).1 (state X B0 k).2),
      coefStep X (state X B0 k).1 (state X B0 k).2) := rfl

/-- The reconstruction after seven rounds and the last coefficient update: `B Cᵀ` at channel `d`, pixel `n`. -/
def result (X : MatX) (B0 : MatB) : Fin 512 → Fin 4096 → EReal := fun d n =>
  ∑ r : Fin 64, (state X B0 7).1 d r * coefStep X (state X B0 7).1 (state X B0 7).2 n r

end Cert.NmfSpec

end
-- ==== Proof.KernelPayload.lean ====
/-
  The kernel's payloads read at one index, against the factorisation's specification.

  The kernel keeps the bases and the coefficients TRANSPOSED (component first), the data block under a leading unit
  axis. Read through those layouts (decX, decB, decC) each payload is, entry by entry, one step of the
  specification: the transposed copy of the bases block, the starting softmax, one coefficient update, one bases
  update, and the last coefficient update followed by the reconstruction. Changes of float format are the identity
  on the extended reals, every matrix product is its finite sum, and the only algebra used is commutativity of
  the product.
-/
import proofs.«102053_j12730283065692_2_alg».proof.Proof.KernelContract
import proofs.«102053_j12730283065692_2_alg».proof.Proof.NmfSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-- The data block as a matrix: channel d, pixel n. -/
def decX (x : Vec Ideal S1x512x4096 .bf16) : Cert.NmfSpec.MatX := fun d n => x (ix3 (0 : Fin 1) d n)
/-- The transposed bases buffer as the bases: channel d, component r. -/
def decB (bt : Vec Ideal S64x512 .f32) : Cert.NmfSpec.MatB := fun d r => bt (ix2 r d)
/-- The transposed coefficient buffer as the coefficients: pixel n, component r. -/
def decC (ct : Vec Ideal S64x4096 .f32) : Cert.NmfSpec.MatC := fun n r => ct (ix2 r n)

/-! ## The bases block, transposed -/

/-- The bases block, cast to a matrix and transposed: entry (r, d) is the block's entry (0, d, r). -/
theorem pay5_apply (v0 : Vec Ideal S1x512x64 .f32) (r : Fin 64) (d : Fin 512) :
    k0_pay5 v0 (ix2 r d) = v0 (ix3 (0 : Fin 1) d r) := by
  unfold k0_pay5
  dsimp only
  rw [shapeCast_self]
  exact (transpose_ix2_apply _ _ r d).trans (shapeCast_1ab_ab_apply v0 _ d r)

/-! ## The pieces of an update -/

/-- A quotient of a product by a sum with a broadcast scalar, read at an index. -/
theorem step_at {s : Shape} (a b c : FVec Ideal s .f32) (e : Ideal .f32) (i : s.Idx) :
    divf (mulf a b) (addf c (broadcast s e)) i = Ideal.div (a i * b i) (c i + e) := rfl

/-- The data block cast to a matrix reads the block under its unit axis. -/
theorem x_cast_apply (x : FVec Ideal S1x512x4096 .bf16) (d : Fin 512) (n : Fin 4096) :
    shapeCast S512x4096 x shapeCasts_S1x512x4096_S512x4096 (ix2 d n) = x (ix3 (0 : Fin 1) d n) :=
  shapeCast_1ab_ab_apply x _ d n

/-- Bases (transposed, narrowed) by the data, at (r, n): the score of pixel n for component r. -/
theorem bt_x_apply (x : FVec Ideal S1x512x4096 .bf16) (bt : FVec Ideal S64x512 .f32) (r : Fin 64) (n : Fin 4096) :
    matmul dot_S64x512_S512x4096_S64x4096_1_0_0_1_n_n none (truncf .bf16 bt bitsLt_bf16_f32)
        (shapeCast S512x4096 x shapeCasts_S1x512x4096_S512x4096) (constant (F := Ideal) S64x4096 .f32 0x00000000#32) (ix2 r n)
      = ∑ d : Fin 512, decX x d n * decB bt d r := by
  refine (mm_bt_x none _ _ r n).trans (Finset.sum_congr rfl fun d _ => ?_)
  rw [x_cast_apply]
  exact mul_comm _ _

/-- The bases' Gram matrix by the coefficients (transposed), at (r, n). -/
theorem gram_ct_apply (bt : FVec Ideal S64x512 .f32) (ct : FVec Ideal S64x4096 .f32) (r : Fin 64) (n : Fin 4096) :
    matmul dot_S64x64_S64x4096_S64x4096_1_0_0_1_n_n (some .fp32)
        (matmul dot_S64x512_S64x512_S64x64_1_1_0_0_n_n (some .fp32) bt bt (constant (F := Ideal) S64x64 .f32 0x00000000#32))
        ct (constant (F := Ideal) S64x4096 .f32 0x00000000#32) (ix2 r n)
      = ∑ k : Fin 64, decC ct n k * ∑ d : Fin 512, decB bt d k * decB bt d r := by
  refine (mm_g_ct (some .fp32) _ _ r n).trans (Finset.sum_congr rfl fun k _ => ?_)
  rw [mm_bt_bt]
  refine (mul_comm _ _).trans ?_
  show ct (ix2 k n) * _ = ct (ix2 k n) * _
  refine congrArg (fun t => ct (ix2 k n) * t) (Finset.sum_congr rfl fun d _ => ?_)
  exact mul_comm _ _

/-- The coefficient update as the kernel writes it, at (r, n). -/
theorem coef_at (x : FVec Ideal S1x512x4096 .bf16) (bt : FVec Ideal S64x512 .f32) (ct : FVec Ideal S64x4096 .f32)
    (r : Fin 64) (n : Fin 4096) :
    divf (mulf ct (matmul dot_S64x512_S512x4096_S64x4096_1_0_0_1_n_n none (truncf .bf16 bt bitsLt_bf16_f32)
          (shapeCast S512x4096 x shapeCasts_S1x512x4096_S512x4096) (constant (F := Ideal) S64x4096 .f32 0x00000000#32)))
        (addf (matmul dot_S64x64_S64x4096_S64x4096_1_0_0_1_n_n (some .fp32)
            (matmul dot_S64x512_S64x512_S64x64_1_1_0_0_n_n (some .fp32) bt bt (constant (F := Ideal) S64x64 .f32 0x00000000#32))
            ct (constant (F := Ideal) S64x4096 .f32 0x00000000#32))
          (broadcast S64x4096 (Scalar.ofBits (F := Ideal) .f32 0x358637BD#32))) (ix2 r n)
      = Cert.NmfSpec.coefStep (decX x) (decB bt) (decC ct) n r := by
  refine (step_at _ _ _ _ _).trans ?_
  rw [bt_x_apply, gram_ct_apply]
  rfl

/-! ## One coefficient update -/

/-- One coefficient update, at component r and pixel n. -/
theorem pay3_apply (x : Vec Ideal S1x512x4096 .bf16) (bt : Vec Ideal S64x512 .f32) (ct : Vec Ideal S64x4096 .f32)
    (r : Fin 64) (n : Fin 4096) :
    k0_pay3 x bt ct ct (ix2 r n) = Cert.NmfSpec.coefStep (decX x) (decB bt) (decC ct) n r := by
  unfold k0_pay3 k0_pay2
  dsimp only
  rw [shapeCast_self]
  exact coef_at x bt ct r n

/-! ## One bases update -/

/-- Coefficients (transposed, narrowed) against the data, at (r, d). -/
theorem ct_x_apply (x : FVec Ideal S1x512x4096 .bf16) (ct : FVec Ideal S64x4096 .f32) (r : Fin 64) (d : Fin 512) :
    matmul dot_S64x4096_S512x4096_S64x512_1_1_0_0_n_n none (truncf .bf16 ct bitsLt_bf16_f32)
        (shapeCast S512x4096 x shapeCasts_S1x512x4096_S512x4096) (constant (F := Ideal) S64x512 .f32 0x00000000#32) (ix2 r d)
      = ∑ n : Fin 4096, decX x d n * decC ct n r := by
  refine (mm_ct_x none _ _ r d).trans (Finset.sum_congr rfl fun n _ => ?_)
  rw [x_cast_apply]
  exact mul_comm _ _

/-- The coefficients' Gram matrix by the bases (transposed), at (r, d). -/
theorem gram_bt_apply (bt : FVec Ideal S64x512 .f32) (ct : FVec Ideal S64x4096 .f32) (r : Fin 64) (d : Fin 512) :
    matmul dot_S64x64_S64x512_S64x512_1_0_0_1_n_n (some .fp32)
        (matmul dot_S64x4096_S64x4096_S64x64_1_1_0_0_n_n (some .fp32) ct ct (constant (F := Ideal) S64x64 .f32 0x00000000#32))
        bt (constant (F := Ideal) S64x512 .f32 0x00000000#32) (ix2 r d)
      = ∑ k : Fin 64, decB bt d k * ∑ n : Fin 4096, decC ct n k * decC ct n r := by
  refine (mm_g_bt (some .fp32) _ _ r d).trans (Finset.sum_congr rfl fun k _ => ?_)
  rw [mm_ct_ct]
  refine (mul_comm _ _).trans ?_
  show bt (ix2 k d) * _ = bt (ix2 k d) * _
  refine congrArg (fun t => bt (ix2 k d) * t) (Finset.sum_congr rfl fun n _ => ?_)
  exact mul_comm _ _

/-- One bases update, at component r and channel d. -/
theorem pay4_apply (x : Vec Ideal S1x512x4096 .bf16) (ct : Vec Ideal S64x4096 .f32) (bt : Vec Ideal S64x512 .f32)
    (r : Fin 64) (d : Fin 512) :
    k0_pay4 x ct bt bt (ix2 r d) = Cert.NmfSpec.basesStep (decX x) (decB bt) (decC ct) d r := by
  unfold k0_pay4 k0_pay2
  dsimp only
  rw [shapeCast_self]
  refine (step_at _ _ _ _ _).trans ?_
  rw [ct_x_apply, gram_bt_apply]
  rfl

/-! ## The last coefficient update and the reconstruction -/

/-- The output block: at (0, d, n) the sum over the components of the bases times the updated coefficients. -/
theorem pay1_apply (x : Vec Ideal S1x512x4096 .bf16) (bt : Vec Ideal S64x512 .f32) (ct : Vec Ideal S64x4096 .f32)
    (d : Fin 512) (n : Fin 4096) :
    k0_pay1 bt (k0_pay7 bt) (k0_pay8 x bt) ct (ix3 (0 : Fin 1) d n)
      = ∑ r : Fin 64, decB bt d r * Cert.NmfSpec.coefStep (decX x) (decB bt) (decC ct) n r := by
  unfold k0_pay1 k0_pay8 k0_pay7
  dsimp only
  refine (shapeCast_ab_1ab_apply _ _ (0 : Fin 1) d n).trans ?_
  refine (mm_bt_ct none _ _ d n).trans (Finset.sum_congr rfl fun r _ => ?_)
  show bt (ix2 r d) * _ = bt (ix2 r d) * _
  exact congrArg (fun t => bt (ix2 r d) * t) (coef_at x bt ct r n)

/-! ## The starting softmax -/

/-- The word the kernel multiplies the scores by is one. -/
theorem one_bits : Ideal.ofBits .f32 0x3F800000#32 = 1 := IdealRules.sign_bit.ideal_onePat .f32

/-- The index a reduction over the component axis reads at component k of column n. -/
theorem lift_eq (n : Fin 4096) (k : Fin 64) : reduces_S64x4096_S4096.lift (ix1 n) k = ix2 k n :=
  funext fun a => Fin.ext (by
    match a with
    | ⟨0, _⟩ => rfl
    | ⟨1, _⟩ => rfl)

/-- The largest entry of column n over the components, from the word of minus infinity. -/
def colMax (v : FVec Ideal S64x4096 .f32) (n : Fin 4096) : EReal :=
  (Finset.univ : Finset (Fin 64)).fold max Cert.NmfSpec.negInf (fun k => v (ix2 k n))

/-- The column maximum the kernel takes, kept as a row and read at (u, n). -/
theorem colmax_apply (v : FVec Ideal S64x4096 .f32) (u : Fin 1) (n : Fin 4096) :
    shapeCast S1x4096 (multiReduction .maximumf [0] S4096 v 0xFF800000#32 reduces_S64x4096_S4096 (.inl rfl) rfl)
        shapeCasts_S4096_S1x4096 (ix2 u n) = colMax v n := by
  refine (shapeCast_a_1a_apply _ _ u n).trans ?_
  refine (Ideal.multiReduction_maximumf_single v 0xFF800000#32 reduces_S64x4096_S4096 (.inl rfl) rfl (ix1 n)).trans ?_
  have hf : (v ∘ reduces_S64x4096_S4096.lift (ix1 n)) = fun k : Fin 64 => v (ix2 k n) :=
    funext fun k => congrArg v (lift_eq n k)
  rw [hf]
  rfl

/-- The column sum the kernel takes, kept as a row and read at (u, n). -/
theorem colsum_apply (w : FVec Ideal S64x4096 .f32) (u : Fin 1) (n : Fin 4096) :
    shapeCast S1x4096 (multiReduction .add [0] S4096 w 0x00000000#32 reduces_S64x4096_S4096 (.inl rfl) rfl)
        shapeCasts_S4096_S1x4096 (ix2 u n) = ∑ k : Fin 64, w (ix2 k n) := by
  refine (shapeCast_a_1a_apply _ _ u n).trans ?_
  refine (Ideal.multiReduction_add_single w 0x00000000#32 reduces_S64x4096_S4096 (.inl rfl) rfl (ix1 n)).trans ?_
  exact Finset.sum_congr rfl fun k _ => congrArg w (lift_eq n k)

/-- The exponentials of the scores, each column's maximum subtracted first, as the kernel writes them. -/
def expShift (v : FVec Ideal S64x4096 .f32) : FVec Ideal S64x4096 .f32 :=
  exp (subf (mulf (broadcast S64x4096 (Scalar.ofBits (F := Ideal) .f32 0x3F800000#32)) v)
    (broadcastTo S64x4096
      (shapeCast S1x4096 (multiReduction .maximumf [0] S4096 v 0xFF800000#32 reduces_S64x4096_S4096 (.inl rfl) rfl)
        shapeCasts_S4096_S1x4096) broadcasts_S1x4096_S64x4096))

/-- They read, at (r, n), the exponential of the entry less its column's maximum. -/
theorem expShift_apply (v : FVec Ideal S64x4096 .f32) (r : Fin 64) (n : Fin 4096) :
    expShift v (ix2 r n) = Ideal.exp (v (ix2 r n) - colMax v n) := by
  show Ideal.exp (Ideal.ofBits .f32 0x3F800000#32 * v (ix2 r n)
      - broadcastTo S64x4096 (shapeCast S1x4096 (multiReduction .maximumf [0] S4096 v 0xFF800000#32
          reduces_S64x4096_S4096 (.inl rfl) rfl) shapeCasts_S4096_S1x4096) broadcasts_S1x4096_S64x4096 (ix2 r n)) = _
  rw [one_bits, one_mul, broadcastTo_1b_ab_apply, colmax_apply]

/-- The softmax over the components as the kernel writes it, at (r, n). -/
theorem soft_at (v : FVec Ideal S64x4096 .f32) (r : Fin 64) (n : Fin 4096) :
    divf (expShift v)
        (broadcastTo S64x4096
          (shapeCast S1x4096 (multiReduction .add [0] S4096 (expShift v) 0x00000000#32 reduces_S64x4096_S4096 (.inl rfl) rfl)
            shapeCasts_S4096_S1x4096) broadcasts_S1x4096_S64x4096) (ix2 r n)
      = Ideal.div (Ideal.exp (v (ix2 r n) - colMax v n)) (∑ k : Fin 64, Ideal.exp (v (ix2 k n) - colMax v n)) := by
  show Ideal.div (expShift v (ix2 r n))
      (broadcastTo S64x4096 (shapeCast S1x4096 (multiReduction .add [0] S4096 (expShift v) 0x00000000#32
          reduces_S64x4096_S4096 (.inl rfl) rfl) shapeCasts_S4096_S1x4096) broadcasts_S1x4096_S64x4096 (ix2 r n)) = _
  rw [broadcastTo_1b_ab_apply, colsum_apply, expShift_apply]
  exact congrArg (Ideal.div _) (Finset.sum_congr rfl fun k _ => expShift_apply v k n)

/-- The scores as the kernel computes them: the bases (transposed, narrowed) by the data. -/
def scoreT (x : FVec Ideal S1x512x4096 .bf16) (bt : FVec Ideal S64x512 .f32) : FVec Ideal S64x4096 .f32 :=
  matmul dot_S64x512_S512x4096_S64x4096_1_0_0_1_n_n none (truncf .bf16 bt bitsLt_bf16_f32)
    (shapeCast S512x4096 x shapeCasts_S1x512x4096_S512x4096) (constant (F := Ideal) S64x4096 .f32 0x00000000#32)

/-- At (k, n) they are the specification's score of pixel n for component k. -/
theorem scoreT_apply (x : FVec Ideal S1x512x4096 .bf16) (bt : FVec Ideal S64x512 .f32) (k : Fin 64) (n : Fin 4096) :
    scoreT x bt (ix2 k n) = Cert.NmfSpec.score (decX x) (decB bt) n k := bt_x_apply x bt k n

/-- Their column maximum is the specification's row maximum. -/
theorem colMax_scoreT (x : FVec Ideal S1x512x4096 .bf16) (bt : FVec Ideal S64x512 .f32) (n : Fin 4096) :
    colMax (scoreT x bt) n = Cert.NmfSpec.rowMax (decX x) (decB bt) n := by
  unfold colMax Cert.NmfSpec.rowMax
  exact congrArg (fun f => (Finset.univ : Finset (Fin 64)).fold max Cert.NmfSpec.negInf f)
    (funext fun k => scoreT_apply x bt k n)

/-- The starting coefficients, at component r and pixel n. -/
theorem pay6_apply (x : Vec Ideal S1x512x4096 .bf16) (bt : Vec Ideal S64x512 .f32) (r : Fin 64) (n : Fin 4096) :
    k0_pay6 x bt (ix2 r n) = Cert.NmfSpec.soft (decX x) (decB bt) n r := by
  unfold k0_pay6
  dsimp only
  rw [shapeCast_self]
  refine (soft_at (scoreT x bt) r n).trans ?_
  rw [colMax_scoreT, scoreT_apply]
  exact congrArg (Ideal.div _) (Finset.sum_congr rfl fun k _ => by rw [scoreT_apply])

end Cert.KernelIdeal.PayValue

end
-- ==== Proof.KernelState.lean ====
/-
  The body's iterated pair of buffers, decoded, is the specification's state; so the output block is its result.

  The kernel keeps bases and coefficients transposed.  Reading the transposed bases at (r, d) as the bases at (d, r),
  and the transposed coefficients at (r, n) as the coefficients at (n, r), each payload of the body is one step of the
  specification: the two stores before the loop give the starting pair, a trip's two stores give the next pair, and
  the last store is the reconstruction.  By induction over the trips the pair after seven trips is the seventh state.
-/
import proofs.«102053_j12730283065692_2_alg».proof.Proof.KernelRun
import proofs.«102053_j12730283065692_2_alg».proof.Proof.KernelPayload
import proofs.«102053_j12730283065692_2_alg».proof.Proof.NmfSpec

noncomputable section

namespace Cert.KernelIdeal.StateValue

open Cert.KernelIdeal Cert.KernelIdeal.Gen Cert.KernelIdeal.RunValue Cert.KernelIdeal.PayValue
open Idealize.ShloMosaic Idealize.ShloMosaic.ValueIdx

/-- The bases block of one batch element, channel `d`, component `r`. -/
def decB0 (x1 : Vec Ideal S1x512x64 .f32) : Cert.NmfSpec.MatB := fun d r => x1 (ix3 (0 : Fin 1) d r)

/-- The first store transposes the bases block: decoded, it is the block itself. -/
theorem decB_pay5 (x1 : Vec Ideal S1x512x64 .f32) : decB (k0_pay5 x1) = decB0 x1 :=
  funext fun d => funext fun r => pay5_apply x1 r d

/-- After `k` trips the two buffers, decoded, are the specification's bases and coefficients after `k` rounds. -/
theorem kst_state (x : Vec Ideal S1x512x4096 .bf16) (x1 : Vec Ideal S1x512x64 .f32) :
    ∀ k, decB (kst x x1 k).1 = (Cert.NmfSpec.state (decX x) (decB0 x1) k).1
      ∧ decC (kst x x1 k).2 = (Cert.NmfSpec.state (decX x) (decB0 x1) k).2
  | 0 => by
    rw [kst_zero, Cert.NmfSpec.state_zero]
    refine ⟨decB_pay5 x1, ?_⟩
    funext n r
    show k0_pay6 x (k0_pay5 x1) (ix2 r n) = _
    rw [pay6_apply, decB_pay5]
  | k + 1 => by
    obtain ⟨ihB, ihC⟩ := kst_state x x1 k
    have hC : decC (k0_pay3 x (kst x x1 k).1 (kst x x1 k).2 (kst x x1 k).2)
        = Cert.NmfSpec.coefStep (decX x) (Cert.NmfSpec.state (decX x) (decB0 x1) k).1 (Cert.NmfSpec.state (decX x) (decB0 x1) k).2 := by
      funext n r
      show k0_pay3 x (kst x x1 k).1 (kst x x1 k).2 (kst x x1 k).2 (ix2 r n) = _
      rw [pay3_apply, ihB, ihC]
    rw [kst_succ, Cert.NmfSpec.state_succ]
    refine ⟨?_, hC⟩
    funext d r
    show k0_pay4 x (k0_pay3 x (kst x x1 k).1 (kst x x1 k).2 (kst x x1 k).2) (kst x x1 k).1 (kst x x1 k).1 (ix2 r d) = _
    rw [pay4_apply, hC, ihB]

/-- THE OUTPUT BLOCK at channel `d`, pixel `n`: the specification's result for the block's data and bases. -/
theorem block_result (x : Vec Ideal S1x512x4096 .bf16) (x1 : Vec Ideal S1x512x64 .f32) (d : Fin 512) (n : Fin 4096) :
    k0_pay1 (kst x x1 7).1 (k0_pay7 (kst x x1 7).1) (k0_pay8 x (kst x x1 7).1) (kst x x1 7).2 (ix3 (0 : Fin 1) d n)
      = Cert.NmfSpec.result (decX x) (decB0 x1) d n := by
  rw [pay1_apply, (kst_state x x1 7).1, (kst_state x x1 7).2]
  rfl

end Cert.KernelIdeal.StateValue

end
-- ==== Proof.KernelValue.lean ====
/-
  The kernel's result array as one function of its argument arrays.

  Grid point `t` stages block `t` of the data (one batch element, 512 by 4096) and block `t` of the bases (512 by 64)
  and writes back block `t` of the output; the sixteen output blocks tile the output array.  So the array after the
  run is, at (b, d, n), the specification's result for batch element `b`.  Around the region the program only
  re-lays the data: four axes to three before it (and a change of float format, the identity on the extended
  reals), three axes back to four after it.
-/
import proofs.«102053_j12730283065692_2_alg».proof.Proof.KernelState
import Idealize.ShloMosaic.Lib.Pipeline.Value
import Idealize.ShloMosaic.Lib.StableHlo.Run

set_option maxRecDepth 16384

noncomputable section

namespace Cert.KernelIdeal.ArrValue

open Cert.KernelIdeal Cert.KernelIdeal.Gen Cert.KernelIdeal.RunValue Cert.KernelIdeal.PayValue Cert.KernelIdeal.StateValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result array of the factorisation: at batch element `j 0`, channel `j 1`, pixel `j 2`, the specification's
    result for that batch element's data and bases. -/
def G (Xa : S16x512x4096.Idx → EReal) (Ba : S16x512x64.Idx → EReal) : S16x512x4096.Idx → EReal := fun j =>
  Cert.NmfSpec.result (fun d n => Xa (ix3 (n0 := 16) (j 0) d n)) (fun d r => Ba (ix3 (n0 := 16) (j 0) d r)) (j 1) (j 2)

/-- The printed index maps over the grid: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the result array of the arrays the region finds. -/
theorem flushed_eq (c : Dev nD) (t : Fin cfg0.N) :
    (dats m 0 c).flushed 2 t = ((cfg0.win 2).blk t).view.read (Elt Ideal) (G (V m c main_v1) (V m c main_arg1)) := by
  show (cfg0.win 2).cut (grid0.coords t) ((dats m 0 c).after 2 t) = _
  rw [after0_2]
  unfold outsAt0
  rw [out_eq]
  obtain ⟨a0, a1, a2, b0, b1, b2, c0, c1, c2⟩ := idx_facts t
  funext y
  obtain ⟨a, d, n, rfl⟩ : ∃ (a : Fin 1) (d : Fin 512) (n : Fin 4096), y = ix3 a d n := ⟨y 0, y 1, y 2, eq_ix3 y⟩
  obtain rfl : a = 0 := Subsingleton.elim _ _
  show k0_pay1 (F := Ideal) _ _ _ _ (ix3 (0 : Fin 1) d n)
    = G (V m c main_v1) (V m c main_arg1) (((cfg0.win 2).blk t).view.emb (ix3 (0 : Fin 1) d n))
  rw [block_result]
  unfold G
  have he1 : (((cfg0.win 2).blk t).view.emb (ix3 (0 : Fin 1) d n)) 1 = d := Fin.ext (by
    show win0_2.index t (1 : Fin 3) * 512 + 1 * d.val = d.val; omega)
  have he2 : (((cfg0.win 2).blk t).view.emb (ix3 (0 : Fin 1) d n)) 2 = n := Fin.ext (by
    show win0_2.index t (2 : Fin 3) * 4096 + 1 * n.val = n.val; omega)
  have hX : decX (iblk m c 0 t)
      = fun d' n' => V m c main_v1 (ix3 (n0 := 16) ((((cfg0.win 2).blk t).view.emb (ix3 (0 : Fin 1) d n)) 0) d' n') := by
    funext d' n'
    show V m c main_v1 (((cfg0.win 0).blk t).view.emb (ix3 (0 : Fin 1) d' n')) = _
    refine congrArg _ (funext fun a => Fin.ext ?_)
    match a with
    | ⟨0, _⟩ => show win0_0.index t (0 : Fin 3) * 1 + 1 * ((0 : Fin 1) : ℕ) = win0_2.index t (0 : Fin 3) * 1 + 1 * ((0 : Fin 1) : ℕ); omega
    | ⟨1, _⟩ => show win0_0.index t (1 : Fin 3) * 512 + 1 * d'.val = d'.val; omega
    | ⟨2, _⟩ => show win0_0.index t (2 : Fin 3) * 4096 + 1 * n'.val = n'.val; omega
  have hB : decB0 (iblk m c 1 t)
      = fun d' r' => V m c main_arg1 (ix3 (n0 := 16) ((((cfg0.win 2).blk t).view.emb (ix3 (0 : Fin 1) d n)) 0) d' r') := by
    funext d' r'
    show V m c main_arg1 (((cfg0.win 1).blk t).view.emb (ix3 (0 : Fin 1) d' r')) = _
    refine congrArg _ (funext fun a => Fin.ext ?_)
    match a with
    | ⟨0, _⟩ => show win0_1.index t (0 : Fin 3) * 1 + 1 * ((0 : Fin 1) : ℕ) = win0_2.index t (0 : Fin 3) * 1 + 1 * ((0 : Fin 1) : ℕ); omega
    | ⟨1, _⟩ => show win0_1.index t (1 : Fin 3) * 512 + 1 * d'.val = d'.val; omega
    | ⟨2, _⟩ => show win0_1.index t (2 : Fin 3) * 64 + 1 * r'.val = r'.val; omega
  rw [hX, hB, he1, he2]

/-- Index `i` of the output array lies in the block of the point whose number is `i`'s batch coordinate. -/
theorem mem_blk (t : Fin cfg0.N) (i : S16x512x4096.Idx) (ht : t.val = (i 0).val) : i ∈ ((cfg0.win 2).blk t).view.set := by
  have h1 : (i 1).val < 512 := (i 1).isLt
  have h2 : (i 2).val < 4096 := (i 2).isLt
  obtain ⟨-, -, -, -, -, -, c0, c1, c2⟩ := idx_facts t
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 4096 ≤ (i 2).val ∧ (i 2).val < win0_2.index t (2 : Fin 3) * 4096 + 4096
    omega

/-- The sixteen output blocks tile the output array. -/
theorem cover (i : S16x512x4096.Idx) :
    ∃ t : Fin cfg0.N, (cfg0.win 2).flush t = true ∧ i ∈ ((cfg0.win 2).blk t).view.set := by
  have h0 : (i 0).val < 16 := (i 0).isLt
  have hN : cfg0.N = 16 := N_0
  exact ⟨⟨(i 0).val, by omega⟩, flush0_2 _, mem_blk ⟨(i 0).val, by omega⟩ i rfl⟩

/-- THE OUTPUT ARRAY after the run: the result array of the arrays the region finds. -/
theorem final (c : Dev nD) : (dats m 0 c).arrAt 2 cfg0.N = G (V m c main_v1) (V m c main_arg1) :=
  (dats m 0 c).arrAt_eq_of_cover 2 (G (V m c main_v1) (V m c main_arg1)) (fun t _ => flushed_eq m c t) cover

/-- The data as the region finds it: the argument re-laid from four axes to three (the change of float format
    before the region is the identity on the extended reals). -/
theorem V_main_v1 (c : Dev nD) :
    (V m c main_v1 : S16x512x4096.Idx → EReal)
      = shapeCast S16x512x4096 (m ((c : Thread nD τ).loc main_arg0)) shapeCasts_S16x512x64x64_S16x512x4096 := by
  show StableHlo.after hostOps0 (fun b => m (c, b)) (Proc.devRef .tc main_v1) = _
  after_results
  rfl

/-- The program's result: the output array re-laid from three axes to four. -/
theorem tail_eq (c : Dev nD) :
    Pipeline.afterTail₀ cfgs (dats m) 0 (V0 m) [hostOps1] c main_v3
      = shapeCast S16x512x64x64 (G (V m c main_v1) (V m c main_arg1)) shapeCasts_S16x512x4096_S16x512x64x64 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = G (V m c main_v1) (V m c main_arg1) :=
    (Pipeline.withArrays_arr spec0 launch0.win.arr_inj c _ _ 2).trans (final m c)
  rw [hw]
  rfl

/-- THE RUN, READ: every weakly fair execution of the program terminates with its result at the result array of the
    re-laid data and the bases, re-laid to four axes, and its arguments unchanged. -/
theorem run : θ_run defs (onTc (τ := τ) (main (F := Ideal))) ⟨m, fun _ => 0, ρ⟩ fun r => ∀ c : Dev nD,
    r.2.mem ((c.tc : Thread nD τ).loc main_v3)
        = shapeCast S16x512x64x64 (G (shapeCast S16x512x4096 (m ((c.tc : Thread nD τ).loc main_arg0)) shapeCasts_S16x512x64x64_S16x512x4096)
            (m ((c.tc : Thread nD τ).loc main_arg1))) shapeCasts_S16x512x4096_S16x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((tail_eq m c).trans (by rw [V_main_v1, V_main_arg1])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.ArrValue

end
-- ==== Proof.RefContract.lean ====
/-
  The seven batched matrix products of the multiplicative-update factorisation, each read at one entry.

  Every product of the reference program carries the batch element on axis 0 of both operands and of the result and
  contracts ONE axis of each operand. Read at an entry, such a product is the sum, over the contracted coordinate, of
  the left operand's entry times the right operand's entry, the batch element and the free coordinates held fixed:
  the contraction's own index type has a single axis, the sum is re-indexed over that axis's coordinate, and the
  operand indices the dimension numbers compute are identified coordinate by coordinate. Everything is on the
  extended reals, where the host's product is that plain finite sum.
-/
import proofs.«102053_j12730283065692_2_alg».proof.Proof.Gen.ReferenceIdeal
import Idealize.ShloMosaic.PureOps.Ideal.Laws
import Idealize.ShloMosaic.Lib.ValueIdx

noncomputable section

namespace Cert.ReferenceIdeal.RefContract

open Cert.ReferenceIdeal Cert.ReferenceIdeal.Gen Idealize.ShloMosaic Idealize.ShloMosaic.ValueIdx

/-- `Xᵀ B`: data `[b,d,n]` against bases `[b,d,r]`, contracted over the channel `d`; entry `(b,n,r)` is `Σ_d X[b,d,n] · B[b,d,r]`. The sum over the record's own contraction index, re-indexed over its one coordinate. -/
theorem dg1_sum (L : FVec Ideal S16x512x4096 .f32) (R : FVec Ideal S16x512x64 .f32) (b : Fin 16) (n : Fin 4096) (r : Fin 64) :
    (∑ k : (dot_S16x512x4096_S16x512x64_S16x4096x64_1_1_2_2_0_0).contr.Idx, L ((dot_S16x512x4096_S16x512x64_S16x4096x64_1_1_2_2_0_0).lhsIdx (ix3 b n r) k) * R ((dot_S16x512x4096_S16x512x64_S16x4096x64_1_1_2_2_0_0).rhsIdx (ix3 b n r) k))
      = ∑ k : Fin 512, L (ix3 b k n) * R (ix3 b k r) := by
  rw [← Equiv.sum_comp (contrEquiv1 dot_S16x512x4096_S16x512x64_S16x4096x64_1_1_2_2_0_0 512 rfl rfl).symm]
  refine Finset.sum_congr rfl fun k _ => ?_
  have hk := contrEquiv1_symm_val dot_S16x512x4096_S16x512x64_S16x4096x64_1_1_2_2_0_0 512 rfl rfl k
  have el : (dot_S16x512x4096_S16x512x64_S16x4096x64_1_1_2_2_0_0).lhsIdx (ix3 b n r) ((contrEquiv1 dot_S16x512x4096_S16x512x64_S16x4096x64_1_1_2_2_0_0 512 rfl rfl).symm k) = ix3 b k n :=
    funext fun a => Fin.ext (by
      match a with
      | ⟨0, _⟩ => rfl
      | ⟨1, _⟩ => exact ((dot_S16x512x4096_S16x512x64_S16x4096x64_1_1_2_2_0_0).lhsIdx_val_of_single rfl _ _).trans hk
      | ⟨2, _⟩ => rfl)
  have er : (dot_S16x512x4096_S16x512x64_S16x4096x64_1_1_2_2_0_0).rhsIdx (ix3 b n r) ((contrEquiv1 dot_S16x512x4096_S16x512x64_S16x4096x64_1_1_2_2_0_0 512 rfl rfl).symm k) = ix3 b k r :=
    funext fun a => Fin.ext (by
      match a with
      | ⟨0, _⟩ => rfl
      | ⟨1, _⟩ => exact ((dot_S16x512x4096_S16x512x64_S16x4096x64_1_1_2_2_0_0).rhsIdx_val_of_single rfl _ _).trans hk
      | ⟨2, _⟩ => rfl)
  rw [el, er]

/-- The host's product under these dimension numbers, read at `(b, n, r)`. -/
theorem dg1_apply (L : FVec Ideal S16x512x4096 .f32) (R : FVec Ideal S16x512x64 .f32) (b : Fin 16) (n : Fin 4096) (r : Fin 64) :
    Host.dotGeneral dot_S16x512x4096_S16x512x64_S16x4096x64_1_1_2_2_0_0 none L R (ix3 b n r) = ∑ k : Fin 512, L (ix3 b k n) * R (ix3 b k r) :=
  (Ideal.dotGeneral_apply dot_S16x512x4096_S16x512x64_S16x4096x64_1_1_2_2_0_0 none .single L R (ix3 b n r)).trans (dg1_sum L R b n r)

/-- `Bᵀ B`: bases `[b,d,r]` against bases `[b,d,q]`, contracted over the channel `d`; entry `(b,r,q)` is `Σ_d B[b,d,r] · B[b,d,q]`. The sum over the record's own contraction index, re-indexed over its one coordinate. -/
theorem dg2_sum (L : FVec Ideal S16x512x64 .f32) (R : FVec Ideal S16x512x64 .f32) (b : Fin 16) (r : Fin 64) (q : Fin 64) :
    (∑ k : (dot_S16x512x64_S16x512x64_S16x64x64_1_1_2_2_0_0).contr.Idx, L ((dot_S16x512x64_S16x512x64_S16x64x64_1_1_2_2_0_0).lhsIdx (ix3 b r q) k) * R ((dot_S16x512x64_S16x512x64_S16x64x64_1_1_2_2_0_0).rhsIdx (ix3 b r q) k))
      = ∑ k : Fin 512, L (ix3 b k r) * R (ix3 b k q) := by
  rw [← Equiv.sum_comp (contrEquiv1 dot_S16x512x64_S16x512x64_S16x64x64_1_1_2_2_0_0 512 rfl rfl).symm]
  refine Finset.sum_congr rfl fun k _ => ?_
  have hk := contrEquiv1_symm_val dot_S16x512x64_S16x512x64_S16x64x64_1_1_2_2_0_0 512 rfl rfl k
  have el : (dot_S16x512x64_S16x512x64_S16x64x64_1_1_2_2_0_0).lhsIdx (ix3 b r q) ((contrEquiv1 dot_S16x512x64_S16x512x64_S16x64x64_1_1_2_2_0_0 512 rfl rfl).symm k) = ix3 b k r :=
    funext fun a => Fin.ext (by
      match a with
      | ⟨0, _⟩ => rfl
      | ⟨1, _⟩ => exact ((dot_S16x512x64_S16x512x64_S16x64x64_1_1_2_2_0_0).lhsIdx_val_of_single rfl _ _).trans hk
      | ⟨2, _⟩ => rfl)
  have er : (dot_S16x512x64_S16x512x64_S16x64x64_1_1_2_2_0_0).rhsIdx (ix3 b r q) ((contrEquiv1 dot_S16x512x64_S16x512x64_S16x64x64_1_1_2_2_0_0 512 rfl rfl).symm k) = ix3 b k q :=
    funext fun a => Fin.ext (by
      match a with
      | ⟨0, _⟩ => rfl
      | ⟨1, _⟩ => exact ((dot_S16x512x64_S16x512x64_S16x64x64_1_1_2_2_0_0).rhsIdx_val_of_single rfl _ _).trans hk
      | ⟨2, _⟩ => rfl)
  rw [el, er]

/-- The host's product under these dimension numbers, read at `(b, r, q)`. -/
theorem dg2_apply (L : FVec Ideal S16x512x64 .f32) (R : FVec Ideal S16x512x64 .f32) (b : Fin 16) (r : Fin 64) (q : Fin 64) :
    Host.dotGeneral dot_S16x512x64_S16x512x64_S16x64x64_1_1_2_2_0_0 none L R (ix3 b r q) = ∑ k : Fin 512, L (ix3 b k r) * R (ix3 b k q) :=
  (Ideal.dotGeneral_apply dot_S16x512x64_S16x512x64_S16x64x64_1_1_2_2_0_0 none .single L R (ix3 b r q)).trans (dg2_sum L R b r q)

/-- `C G`: coefficients `[b,n,r]` against a Gram matrix `[b,r,q]`, contracted over the component `r`; entry `(b,n,q)` is `Σ_r C[b,n,r] · G[b,r,q]`. The sum over the record's own contraction index, re-indexed over its one coordinate. -/
theorem dg3_sum (L : FVec Ideal S16x4096x64 .f32) (R : FVec Ideal S16x64x64 .f32) (b : Fin 16) (n : Fin 4096) (q : Fin 64) :
    (∑ k : (dot_S16x4096x64_S16x64x64_S16x4096x64_2_1_1_2_0_0).contr.Idx, L ((dot_S16x4096x64_S16x64x64_S16x4096x64_2_1_1_2_0_0).lhsIdx (ix3 b n q) k) * R ((dot_S16x4096x64_S16x64x64_S16x4096x64_2_1_1_2_0_0).rhsIdx (ix3 b n q) k))
      = ∑ k : Fin 64, L (ix3 b n k) * R (ix3 b k q) := by
  rw [← Equiv.sum_comp (contrEquiv1 dot_S16x4096x64_S16x64x64_S16x4096x64_2_1_1_2_0_0 64 rfl rfl).symm]
  refine Finset.sum_congr rfl fun k _ => ?_
  have hk := contrEquiv1_symm_val dot_S16x4096x64_S16x64x64_S16x4096x64_2_1_1_2_0_0 64 rfl rfl k
  have el : (dot_S16x4096x64_S16x64x64_S16x4096x64_2_1_1_2_0_0).lhsIdx (ix3 b n q) ((contrEquiv1 dot_S16x4096x64_S16x64x64_S16x4096x64_2_1_1_2_0_0 64 rfl rfl).symm k) = ix3 b n k :=
    funext fun a => Fin.ext (by
      match a with
      | ⟨0, _⟩ => rfl
      | ⟨1, _⟩ => rfl
      | ⟨2, _⟩ => exact ((dot_S16x4096x64_S16x64x64_S16x4096x64_2_1_1_2_0_0).lhsIdx_val_of_single rfl _ _).trans hk)
  have er : (dot_S16x4096x64_S16x64x64_S16x4096x64_2_1_1_2_0_0).rhsIdx (ix3 b n q) ((contrEquiv1 dot_S16x4096x64_S16x64x64_S16x4096x64_2_1_1_2_0_0 64 rfl rfl).symm k) = ix3 b k q :=
    funext fun a => Fin.ext (by
      match a with
      | ⟨0, _⟩ => rfl
      | ⟨1, _⟩ => exact ((dot_S16x4096x64_S16x64x64_S16x4096x64_2_1_1_2_0_0).rhsIdx_val_of_single rfl _ _).trans hk
      | ⟨2, _⟩ => rfl)
  rw [el, er]

/-- The host's product under these dimension numbers, read at `(b, n, q)`. -/
theorem dg3_apply (L : FVec Ideal S16x4096x64 .f32) (R : FVec Ideal S16x64x64 .f32) (b : Fin 16) (n : Fin 4096) (q : Fin 64) :
    Host.dotGeneral dot_S16x4096x64_S16x64x64_S16x4096x64_2_1_1_2_0_0 none L R (ix3 b n q) = ∑ k : Fin 64, L (ix3 b n k) * R (ix3 b k q) :=
  (Ideal.dotGeneral_apply dot_S16x4096x64_S16x64x64_S16x4096x64_2_1_1_2_0_0 none .single L R (ix3 b n q)).trans (dg3_sum L R b n q)

/-- `X C`: data `[b,d,n]` against coefficients `[b,n,r]`, contracted over the pixel `n`; entry `(b,d,r)` is `Σ_n X[b,d,n] · C[b,n,r]`. The sum over the record's own contraction index, re-indexed over its one coordinate. -/
theorem dg4_sum (L : FVec Ideal S16x512x4096 .f32) (R : FVec Ideal S16x4096x64 .f32) (b : Fin 16) (d : Fin 512) (r : Fin 64) :
    (∑ k : (dot_S16x512x4096_S16x4096x64_S16x512x64_2_1_1_2_0_0).contr.Idx, L ((dot_S16x512x4096_S16x4096x64_S16x512x64_2_1_1_2_0_0).lhsIdx (ix3 b d r) k) * R ((dot_S16x512x4096_S16x4096x64_S16x512x64_2_1_1_2_0_0).rhsIdx (ix3 b d r) k))
      = ∑ k : Fin 4096, L (ix3 b d k) * R (ix3 b k r) := by
  rw [← Equiv.sum_comp (contrEquiv1 dot_S16x512x4096_S16x4096x64_S16x512x64_2_1_1_2_0_0 4096 rfl rfl).symm]
  refine Finset.sum_congr rfl fun k _ => ?_
  have hk := contrEquiv1_symm_val dot_S16x512x4096_S16x4096x64_S16x512x64_2_1_1_2_0_0 4096 rfl rfl k
  have el : (dot_S16x512x4096_S16x4096x64_S16x512x64_2_1_1_2_0_0).lhsIdx (ix3 b d r) ((contrEquiv1 dot_S16x512x4096_S16x4096x64_S16x512x64_2_1_1_2_0_0 4096 rfl rfl).symm k) = ix3 b d k :=
    funext fun a => Fin.ext (by
      match a with
      | ⟨0, _⟩ => rfl
      | ⟨1, _⟩ => rfl
      | ⟨2, _⟩ => exact ((dot_S16x512x4096_S16x4096x64_S16x512x64_2_1_1_2_0_0).lhsIdx_val_of_single rfl _ _).trans hk)
  have er : (dot_S16x512x4096_S16x4096x64_S16x512x64_2_1_1_2_0_0).rhsIdx (ix3 b d r) ((contrEquiv1 dot_S16x512x4096_S16x4096x64_S16x512x64_2_1_1_2_0_0 4096 rfl rfl).symm k) = ix3 b k r :=
    funext fun a => Fin.ext (by
      match a with
      | ⟨0, _⟩ => rfl
      | ⟨1, _⟩ => exact ((dot_S16x512x4096_S16x4096x64_S16x512x64_2_1_1_2_0_0).rhsIdx_val_of_single rfl _ _).trans hk
      | ⟨2, _⟩ => rfl)
  rw [el, er]

/-- The host's product under these dimension numbers, read at `(b, d, r)`. -/
theorem dg4_apply (L : FVec Ideal S16x512x4096 .f32) (R : FVec Ideal S16x4096x64 .f32) (b : Fin 16) (d : Fin 512) (r : Fin 64) :
    Host.dotGeneral dot_S16x512x4096_S16x4096x64_S16x512x64_2_1_1_2_0_0 none L R (ix3 b d r) = ∑ k : Fin 4096, L (ix3 b d k) * R (ix3 b k r) :=
  (Ideal.dotGeneral_apply dot_S16x512x4096_S16x4096x64_S16x512x64_2_1_1_2_0_0 none .single L R (ix3 b d r)).trans (dg4_sum L R b d r)

/-- `Cᵀ C`: coefficients `[b,n,r]` against coefficients `[b,n,q]`, contracted over the pixel `n`; entry `(b,r,q)` is `Σ_n C[b,n,r] · C[b,n,q]`. The sum over the record's own contraction index, re-indexed over its one coordinate. -/
theorem dg5_sum (L : FVec Ideal S16x4096x64 .f32) (R : FVec Ideal S16x4096x64 .f32) (b : Fin 16) (r : Fin 64) (q : Fin 64) :
    (∑ k : (dot_S16x4096x64_S16x4096x64_S16x64x64_1_1_2_2_0_0).contr.Idx, L ((dot_S16x4096x64_S16x4096x64_S16x64x64_1_1_2_2_0_0).lhsIdx (ix3 b r q) k) * R ((dot_S16x4096x64_S16x4096x64_S16x64x64_1_1_2_2_0_0).rhsIdx (ix3 b r q) k))
      = ∑ k : Fin 4096, L (ix3 b k r) * R (ix3 b k q) := by
  rw [← Equiv.sum_comp (contrEquiv1 dot_S16x4096x64_S16x4096x64_S16x64x64_1_1_2_2_0_0 4096 rfl rfl).symm]
  refine Finset.sum_congr rfl fun k _ => ?_
  have hk := contrEquiv1_symm_val dot_S16x4096x64_S16x4096x64_S16x64x64_1_1_2_2_0_0 4096 rfl rfl k
  have el : (dot_S16x4096x64_S16x4096x64_S16x64x64_1_1_2_2_0_0).lhsIdx (ix3 b r q) ((contrEquiv1 dot_S16x4096x64_S16x4096x64_S16x64x64_1_1_2_2_0_0 4096 rfl rfl).symm k) = ix3 b k r :=
    funext fun a => Fin.ext (by
      match a with
      | ⟨0, _⟩ => rfl
      | ⟨1, _⟩ => exact ((dot_S16x4096x64_S16x4096x64_S16x64x64_1_1_2_2_0_0).lhsIdx_val_of_single rfl _ _).trans hk
      | ⟨2, _⟩ => rfl)
  have er : (dot_S16x4096x64_S16x4096x64_S16x64x64_1_1_2_2_0_0).rhsIdx (ix3 b r q) ((contrEquiv1 dot_S16x4096x64_S16x4096x64_S16x64x64_1_1_2_2_0_0 4096 rfl rfl).symm k) = ix3 b k q :=
    funext fun a => Fin.ext (by
      match a with
      | ⟨0, _⟩ => rfl
      | ⟨1, _⟩ => exact ((dot_S16x4096x64_S16x4096x64_S16x64x64_1_1_2_2_0_0).rhsIdx_val_of_single rfl _ _).trans hk
      | ⟨2, _⟩ => rfl)
  rw [el, er]

/-- The host's product under these dimension numbers, read at `(b, r, q)`. -/
theorem dg5_apply (L : FVec Ideal S16x4096x64 .f32) (R : FVec Ideal S16x4096x64 .f32) (b : Fin 16) (r : Fin 64) (q : Fin 64) :
    Host.dotGeneral dot_S16x4096x64_S16x4096x64_S16x64x64_1_1_2_2_0_0 none L R (ix3 b r q) = ∑ k : Fin 4096, L (ix3 b k r) * R (ix3 b k q) :=
  (Ideal.dotGeneral_apply dot_S16x4096x64_S16x4096x64_S16x64x64_1_1_2_2_0_0 none .single L R (ix3 b r q)).trans (dg5_sum L R b r q)

/-- `B G`: bases `[b,d,r]` against a Gram matrix `[b,r,q]`, contracted over the component `r`; entry `(b,d,q)` is `Σ_r B[b,d,r] · G[b,r,q]`. The sum over the record's own contraction index, re-indexed over its one coordinate. -/
theorem dg6_sum (L : FVec Ideal S16x512x64 .f32) (R : FVec Ideal S16x64x64 .f32) (b : Fin 16) (d : Fin 512) (q : Fin 64) :
    (∑ k : (dot_S16x512x64_S16x64x64_S16x512x64_2_1_1_2_0_0).contr.Idx, L ((dot_S16x512x64_S16x64x64_S16x512x64_2_1_1_2_0_0).lhsIdx (ix3 b d q) k) * R ((dot_S16x512x64_S16x64x64_S16x512x64_2_1_1_2_0_0).rhsIdx (ix3 b d q) k))
      = ∑ k : Fin 64, L (ix3 b d k) * R (ix3 b k q) := by
  rw [← Equiv.sum_comp (contrEquiv1 dot_S16x512x64_S16x64x64_S16x512x64_2_1_1_2_0_0 64 rfl rfl).symm]
  refine Finset.sum_congr rfl fun k _ => ?_
  have hk := contrEquiv1_symm_val dot_S16x512x64_S16x64x64_S16x512x64_2_1_1_2_0_0 64 rfl rfl k
  have el : (dot_S16x512x64_S16x64x64_S16x512x64_2_1_1_2_0_0).lhsIdx (ix3 b d q) ((contrEquiv1 dot_S16x512x64_S16x64x64_S16x512x64_2_1_1_2_0_0 64 rfl rfl).symm k) = ix3 b d k :=
    funext fun a => Fin.ext (by
      match a with
      | ⟨0, _⟩ => rfl
      | ⟨1, _⟩ => rfl
      | ⟨2, _⟩ => exact ((dot_S16x512x64_S16x64x64_S16x512x64_2_1_1_2_0_0).lhsIdx_val_of_single rfl _ _).trans hk)
  have er : (dot_S16x512x64_S16x64x64_S16x512x64_2_1_1_2_0_0).rhsIdx (ix3 b d q) ((contrEquiv1 dot_S16x512x64_S16x64x64_S16x512x64_2_1_1_2_0_0 64 rfl rfl).symm k) = ix3 b k q :=
    funext fun a => Fin.ext (by
      match a with
      | ⟨0, _⟩ => rfl
      | ⟨1, _⟩ => exact ((dot_S16x512x64_S16x64x64_S16x512x64_2_1_1_2_0_0).rhsIdx_val_of_single rfl _ _).trans hk
      | ⟨2, _⟩ => rfl)
  rw [el, er]

/-- The host's product under these dimension numbers, read at `(b, d, q)`. -/
theorem dg6_apply (L : FVec Ideal S16x512x64 .f32) (R : FVec Ideal S16x64x64 .f32) (b : Fin 16) (d : Fin 512) (q : Fin 64) :
    Host.dotGeneral dot_S16x512x64_S16x64x64_S16x512x64_2_1_1_2_0_0 none L R (ix3 b d q) = ∑ k : Fin 64, L (ix3 b d k) * R (ix3 b k q) :=
  (Ideal.dotGeneral_apply dot_S16x512x64_S16x64x64_S16x512x64_2_1_1_2_0_0 none .single L R (ix3 b d q)).trans (dg6_sum L R b d q)

/-- `B Cᵀ`: bases `[b,d,r]` against coefficients `[b,n,r]`, contracted over the component `r`; entry `(b,d,n)` is `Σ_r B[b,d,r] · C[b,n,r]`. The sum over the record's own contraction index, re-indexed over its one coordinate. -/
theorem dg7_sum (L : FVec Ideal S16x512x64 .f32) (R : FVec Ideal S16x4096x64 .f32) (b : Fin 16) (d : Fin 512) (n : Fin 4096) :
    (∑ k : (dot_S16x512x64_S16x4096x64_S16x512x4096_2_2_1_1_0_0).contr.Idx, L ((dot_S16x512x64_S16x4096x64_S16x512x4096_2_2_1_1_0_0).lhsIdx (ix3 b d n) k) * R ((dot_S16x512x64_S16x4096x64_S16x512x4096_2_2_1_1_0_0).rhsIdx (ix3 b d n) k))
      = ∑ k : Fin 64, L (ix3 b d k) * R (ix3 b n k) := by
  rw [← Equiv.sum_comp (contrEquiv1 dot_S16x512x64_S16x4096x64_S16x512x4096_2_2_1_1_0_0 64 rfl rfl).symm]
  refine Finset.sum_congr rfl fun k _ => ?_
  have hk := contrEquiv1_symm_val dot_S16x512x64_S16x4096x64_S16x512x4096_2_2_1_1_0_0 64 rfl rfl k
  have el : (dot_S16x512x64_S16x4096x64_S16x512x4096_2_2_1_1_0_0).lhsIdx (ix3 b d n) ((contrEquiv1 dot_S16x512x64_S16x4096x64_S16x512x4096_2_2_1_1_0_0 64 rfl rfl).symm k) = ix3 b d k :=
    funext fun a => Fin.ext (by
      match a with
      | ⟨0, _⟩ => rfl
      | ⟨1, _⟩ => rfl
      | ⟨2, _⟩ => exact ((dot_S16x512x64_S16x4096x64_S16x512x4096_2_2_1_1_0_0).lhsIdx_val_of_single rfl _ _).trans hk)
  have er : (dot_S16x512x64_S16x4096x64_S16x512x4096_2_2_1_1_0_0).rhsIdx (ix3 b d n) ((contrEquiv1 dot_S16x512x64_S16x4096x64_S16x512x4096_2_2_1_1_0_0 64 rfl rfl).symm k) = ix3 b n k :=
    funext fun a => Fin.ext (by
      match a with
      | ⟨0, _⟩ => rfl
      | ⟨1, _⟩ => rfl
      | ⟨2, _⟩ => exact ((dot_S16x512x64_S16x4096x64_S16x512x4096_2_2_1_1_0_0).rhsIdx_val_of_single rfl _ _).trans hk)
  rw [el, er]

/-- The host's product under these dimension numbers, read at `(b, d, n)`. -/
theorem dg7_apply (L : FVec Ideal S16x512x64 .f32) (R : FVec Ideal S16x4096x64 .f32) (b : Fin 16) (d : Fin 512) (n : Fin 4096) :
    Host.dotGeneral dot_S16x512x64_S16x4096x64_S16x512x4096_2_2_1_1_0_0 none L R (ix3 b d n) = ∑ k : Fin 64, L (ix3 b d k) * R (ix3 b n k) :=
  (Ideal.dotGeneral_apply dot_S16x512x64_S16x4096x64_S16x512x4096_2_2_1_1_0_0 none .single L R (ix3 b d n)).trans (dg7_sum L R b d n)

end Cert.ReferenceIdeal.RefContract

end
-- ==== Proof.RefStages.lean ====
/-
  The reference program's stages as functions of the data and the bases, and each stage read at one entry.

  The program works on all sixteen batch elements at once: the data as an array `[b, d, n]` (channel `d`, pixel `n`), the
  bases `[b, d, r]` (component `r`), the coefficients `[b, n, r]`. Its stages are the row-wise softmax of `Xᵀ B` that
  starts the coefficients, the coefficient update and the bases update; the result is `B Cᵀ` after seven rounds and
  one more coefficient update. Read at batch element `b`, each stage is the corresponding function of the
  factorisation's specification applied to the `b`-th slices of its arguments: every batched product is the sum
  over its contracted coordinate with `b` held fixed, every elementwise operation acts entry by entry, the constant
  `1` the scores are multiplied by is the unit, the running maximum taken once more against its own starting value
  is unchanged, and the row sums start from `0`.
-/
import proofs.«102053_j12730283065692_2_alg».proof.Proof.RefContract
import proofs.«102053_j12730283065692_2_alg».proof.Proof.NmfSpec
import Idealize.ShloMosaic.Lib.IdealHost

noncomputable section

namespace Cert.ReferenceIdeal.RefValue

open Cert.ReferenceIdeal Cert.ReferenceIdeal.Gen Cert.ReferenceIdeal.RefContract Cert.NmfSpec
open Idealize.ShloMosaic Idealize.ShloMosaic.ValueIdx

/-! ## The slices of one batch element -/

/-- The data of batch element `b`. -/
abbrev sliceX (X : FVec Ideal S16x512x4096 .f32) (b : Fin 16) : MatX := fun d n => X (ix3 b d n)
/-- The bases of batch element `b`. -/
abbrev sliceB (B : FVec Ideal S16x512x64 .f32) (b : Fin 16) : MatB := fun d r => B (ix3 b d r)
/-- The coefficients of batch element `b`. -/
abbrev sliceC (C : FVec Ideal S16x4096x64 .f32) (b : Fin 16) : MatC := fun n r => C (ix3 b n r)

/-! ## The stages -/

/-- The scores `Xᵀ B`, multiplied by the constant one (the softmax's inverse temperature). -/
def refScore (X : FVec Ideal S16x512x4096 .f32) (B : FVec Ideal S16x512x64 .f32) : FVec Ideal S16x4096x64 .f32 :=
  mulf (broadcastInDim S16x4096x64 ![] bcast_S_S16x4096x64 (constant (F := Ideal) S_ .f32 0x3F800000#32))
    (Host.dotGeneral dot_S16x512x4096_S16x512x64_S16x4096x64_1_1_2_2_0_0 none X B)

/-- The largest score of each pixel: the maximum over the components, taken once more against its starting value. -/
def refRowMax (X : FVec Ideal S16x512x4096 .f32) (B : FVec Ideal S16x512x64 .f32) : FVec Ideal S16x4096 .f32 :=
  maximumf (broadcastInDim S16x4096 ![] bcast_S_S16x4096 (constant (F := Ideal) S_ .f32 0xFF800000#32))
    (Host.reduce FloatOps.maximumf (refScore X B) (constant (F := Ideal) S_ .f32 0xFF800000#32) reducesTo_S16x4096x64_S16x4096_d2 h_S_)

/-- The exponentials of the scores, the pixel's largest score subtracted first. -/
def refExp (X : FVec Ideal S16x512x4096 .f32) (B : FVec Ideal S16x512x64 .f32) : FVec Ideal S16x4096x64 .f32 :=
  Host.exp (subf (refScore X B) (broadcastInDim S16x4096x64 ![0, 1, 2] bcast_S16x4096x1_S16x4096x64_0_1_2
    (broadcastInDim S16x4096x1 ![0, 1] bcast_S16x4096_S16x4096x1_0_1 (refRowMax X B))))

/-- The starting coefficients: each exponential divided by its pixel's sum of exponentials. -/
def refSoft (X : FVec Ideal S16x512x4096 .f32) (B : FVec Ideal S16x512x64 .f32) : FVec Ideal S16x4096x64 .f32 :=
  Host.divf (refExp X B) (broadcastInDim S16x4096x64 ![0, 1, 2] bcast_S16x4096x1_S16x4096x64_0_1_2
    (broadcastInDim S16x4096x1 ![0, 1] bcast_S16x4096_S16x4096x1_0_1
      (Host.reduceAdd (refExp X B) (constant (F := Ideal) S_ .f32 0x00000000#32) reducesTo_S16x4096x64_S16x4096_d2 h_S_)))

/-- One update of the coefficients: `C ∘ (Xᵀ B) / (C (Bᵀ B) + ε)`. -/
def refCoef (X : FVec Ideal S16x512x4096 .f32) (B : FVec Ideal S16x512x64 .f32) (C : FVec Ideal S16x4096x64 .f32) :
    FVec Ideal S16x4096x64 .f32 :=
  Host.divf (mulf C (Host.dotGeneral dot_S16x512x4096_S16x512x64_S16x4096x64_1_1_2_2_0_0 none X B))
    (addf (Host.dotGeneral dot_S16x4096x64_S16x64x64_S16x4096x64_2_1_1_2_0_0 none C (Host.dotGeneral dot_S16x512x64_S16x512x64_S16x64x64_1_1_2_2_0_0 none B B))
      (broadcastInDim S16x4096x64 ![] bcast_S_S16x4096x64 (constant (F := Ideal) S_ .f32 0x358637BD#32)))

/-- One update of the bases: `B ∘ (X C) / (B (Cᵀ C) + ε)`. -/
def refBases (X : FVec Ideal S16x512x4096 .f32) (B : FVec Ideal S16x512x64 .f32) (C : FVec Ideal S16x4096x64 .f32) :
    FVec Ideal S16x512x64 .f32 :=
  Host.divf (mulf B (Host.dotGeneral dot_S16x512x4096_S16x4096x64_S16x512x64_2_1_1_2_0_0 none X C))
    (addf (Host.dotGeneral dot_S16x512x64_S16x64x64_S16x512x64_2_1_1_2_0_0 none B (Host.dotGeneral dot_S16x4096x64_S16x4096x64_S16x64x64_1_1_2_2_0_0 none C C))
      (broadcastInDim S16x512x64 ![] bcast_S_S16x512x64 (constant (F := Ideal) S_ .f32 0x358637BD#32)))

/-! ## Each stage read at one entry -/

/-- An array over `(b, n)` repeated along a new last axis of extent one and then along the components reads, at
    `(b, n, r)`, its entry `(b, n)`. -/
theorem bcastRow_apply {α : Type} (y : S16x4096.Idx → α) (b : Fin 16) (n : Fin 4096) (r : Fin 64) :
    broadcastInDim S16x4096x64 ![0, 1, 2] bcast_S16x4096x1_S16x4096x64_0_1_2
      (broadcastInDim S16x4096x1 ![0, 1] bcast_S16x4096_S16x4096x1_0_1 y) (ix3 b n r) = y (ix2 b n) := by
  unfold broadcastInDim
  refine congrArg y (funext fun a => Fin.ext ?_)
  match a with
  | ⟨0, _⟩ => rfl
  | ⟨1, _⟩ => rfl

/-- Dropping the component axis of `[16, 4096, 64]` leaves `[16, 4096]`. -/
theorem hred : S16x4096x64.Reduces [2] S16x4096 := by decide

/-- The pixel `(b, n)` with the component `k` inserted is the entry `(b, n, k)`. -/
theorem lift_row (b : Fin 16) (n : Fin 4096) (k : Fin 64) : hred.lift (ix2 b n) k = ix3 b n k :=
  funext fun a => Fin.ext (by
    match a with
    | ⟨0, _⟩ => rfl
    | ⟨1, _⟩ => rfl
    | ⟨2, _⟩ => rfl)

/-- The scores at `(b, n, r)`: the constant they are multiplied by is one. -/
theorem refScore_apply (X : FVec Ideal S16x512x4096 .f32) (B : FVec Ideal S16x512x64 .f32) (b : Fin 16) (n : Fin 4096) (r : Fin 64) :
    refScore X B (ix3 b n r) = score (sliceX X b) (sliceB B b) n r := by
  show Ideal.ofBits .f32 0x3F800000#32 * Host.dotGeneral dot_S16x512x4096_S16x512x64_S16x4096x64_1_1_2_2_0_0 none X B (ix3 b n r) = _
  rw [Ideal.ofBits_one_f32, one_mul, dg1_apply]
  rfl

/-- The largest score of pixel `(b, n)`: a maximum that starts from a value is at least that value, so taking it
    once more against the same value changes nothing. -/
theorem refRowMax_apply (X : FVec Ideal S16x512x4096 .f32) (B : FVec Ideal S16x512x64 .f32) (b : Fin 16) (n : Fin 4096) :
    refRowMax X B (ix2 b n) = rowMax (sliceX X b) (sliceB B b) n := by
  have hf : (refScore X B ∘ hred.lift (ix2 b n)) = score (sliceX X b) (sliceB B b) n :=
    funext fun k => (congrArg (refScore X B) (lift_row b n k)).trans (refScore_apply X B b n k)
  have hfold : Host.reduce FloatOps.maximumf (refScore X B) (constant (F := Ideal) S_ .f32 0xFF800000#32)
      reducesTo_S16x4096x64_S16x4096_d2 h_S_ (ix2 b n) = rowMax (sliceX X b) (sliceB B b) n := by
    rw [Host.reduce_eq_fold_single FloatOps.maximumf (refScore X B) _ reducesTo_S16x4096x64_S16x4096_d2 hred h_S_ (ix2 b n), hf]
    rfl
  rw [refRowMax, maximumf_apply, hfold, broadcastInDim_scalar_apply, constant_apply]
  exact max_eq_right ((Finset.le_fold_max _).mpr (Or.inl le_rfl))

/-- The exponentials at `(b, n, r)`. -/
theorem refExp_apply (X : FVec Ideal S16x512x4096 .f32) (B : FVec Ideal S16x512x64 .f32) (b : Fin 16) (n : Fin 4096) (r : Fin 64) :
    refExp X B (ix3 b n r) = Ideal.exp (score (sliceX X b) (sliceB B b) n r - rowMax (sliceX X b) (sliceB B b) n) := by
  show Ideal.exp (refScore X B (ix3 b n r) - broadcastInDim S16x4096x64 ![0, 1, 2] bcast_S16x4096x1_S16x4096x64_0_1_2
    (broadcastInDim S16x4096x1 ![0, 1] bcast_S16x4096_S16x4096x1_0_1 (refRowMax X B)) (ix3 b n r)) = _
  rw [bcastRow_apply, refScore_apply, refRowMax_apply]

/-- The starting coefficients at `(b, n, r)` are the softmax of the scores of batch element `b`: the row sum starts
    from zero. -/
theorem refSoft_apply (X : FVec Ideal S16x512x4096 .f32) (B : FVec Ideal S16x512x64 .f32) (b : Fin 16) (n : Fin 4096) (r : Fin 64) :
    refSoft X B (ix3 b n r) = soft (sliceX X b) (sliceB B b) n r := by
  have hsum : Host.reduceAdd (refExp X B) (constant (F := Ideal) S_ .f32 0x00000000#32) reducesTo_S16x4096x64_S16x4096_d2 h_S_ (ix2 b n)
      = ∑ k : Fin 64, Ideal.exp (score (sliceX X b) (sliceB B b) n k - rowMax (sliceX X b) (sliceB B b) n) := by
    refine (Ideal.hostReduceAdd_single reducesTo_S16x4096x64_S16x4096_d2 hred (refExp X B) (Ideal.ofBits .f32 0x00000000#32) (ix2 b n)).trans ?_
    rw [Ideal.ofBits_zero_f32, zero_add]
    exact Finset.sum_congr rfl fun k _ => (congrArg (refExp X B) (lift_row b n k)).trans (refExp_apply X B b n k)
  show Ideal.div (refExp X B (ix3 b n r)) (broadcastInDim S16x4096x64 ![0, 1, 2] bcast_S16x4096x1_S16x4096x64_0_1_2
    (broadcastInDim S16x4096x1 ![0, 1] bcast_S16x4096_S16x4096x1_0_1
      (Host.reduceAdd (refExp X B) (constant (F := Ideal) S_ .f32 0x00000000#32) reducesTo_S16x4096x64_S16x4096_d2 h_S_)) (ix3 b n r)) = _
  rw [bcastRow_apply, refExp_apply, hsum]
  rfl

/-- The coefficient update at `(b, n, r)` is the specification's on the slices of batch element `b`. -/
theorem refCoef_apply (X : FVec Ideal S16x512x4096 .f32) (B : FVec Ideal S16x512x64 .f32) (C : FVec Ideal S16x4096x64 .f32)
    (b : Fin 16) (n : Fin 4096) (r : Fin 64) :
    refCoef X B C (ix3 b n r) = coefStep (sliceX X b) (sliceB B b) (sliceC C b) n r := by
  have h2 : ∀ k : Fin 64, Host.dotGeneral dot_S16x512x64_S16x512x64_S16x64x64_1_1_2_2_0_0 none B B (ix3 b k r) = ∑ d : Fin 512, B (ix3 b d k) * B (ix3 b d r) :=
    fun k => dg2_apply B B b k r
  show Ideal.div (C (ix3 b n r) * Host.dotGeneral dot_S16x512x4096_S16x512x64_S16x4096x64_1_1_2_2_0_0 none X B (ix3 b n r))
    (Host.dotGeneral dot_S16x4096x64_S16x64x64_S16x4096x64_2_1_1_2_0_0 none C (Host.dotGeneral dot_S16x512x64_S16x512x64_S16x64x64_1_1_2_2_0_0 none B B) (ix3 b n r) + Ideal.ofBits .f32 0x358637BD#32) = _
  rw [dg1_apply, dg3_apply]
  simp only [h2]
  rfl

/-- The bases update at `(b, d, r)` is the specification's on the slices of batch element `b`. -/
theorem refBases_apply (X : FVec Ideal S16x512x4096 .f32) (B : FVec Ideal S16x512x64 .f32) (C : FVec Ideal S16x4096x64 .f32)
    (b : Fin 16) (d : Fin 512) (r : Fin 64) :
    refBases X B C (ix3 b d r) = basesStep (sliceX X b) (sliceB B b) (sliceC C b) d r := by
  have h5 : ∀ k : Fin 64, Host.dotGeneral dot_S16x4096x64_S16x4096x64_S16x64x64_1_1_2_2_0_0 none C C (ix3 b k r) = ∑ n : Fin 4096, C (ix3 b n k) * C (ix3 b n r) :=
    fun k => dg5_apply C C b k r
  show Ideal.div (B (ix3 b d r) * Host.dotGeneral dot_S16x512x4096_S16x4096x64_S16x512x64_2_1_1_2_0_0 none X C (ix3 b d r))
    (Host.dotGeneral dot_S16x512x64_S16x64x64_S16x512x64_2_1_1_2_0_0 none B (Host.dotGeneral dot_S16x4096x64_S16x4096x64_S16x64x64_1_1_2_2_0_0 none C C) (ix3 b d r) + Ideal.ofBits .f32 0x358637BD#32) = _
  rw [dg4_apply, dg6_apply]
  simp only [h5]
  rfl

/-! ## The rounds -/

/-- Bases and coefficients of all batch elements after `k` rounds: the coefficients are updated first, the bases with
    the new coefficients. -/
def refState (X : FVec Ideal S16x512x4096 .f32) (Bs : FVec Ideal S16x512x64 .f32) :
    ℕ → FVec Ideal S16x512x64 .f32 × FVec Ideal S16x4096x64 .f32
  | 0 => (Bs, refSoft X Bs)
  | k + 1 => (refBases X (refState X Bs k).1 (refCoef X (refState X Bs k).1 (refState X Bs k).2),
      refCoef X (refState X Bs k).1 (refState X Bs k).2)

theorem refState_zero (X : FVec Ideal S16x512x4096 .f32) (Bs : FVec Ideal S16x512x64 .f32) :
    refState X Bs 0 = (Bs, refSoft X Bs) := rfl
theorem refState_succ (X : FVec Ideal S16x512x4096 .f32) (Bs : FVec Ideal S16x512x64 .f32) (k : ℕ) :
    refState X Bs (k + 1) = (refBases X (refState X Bs k).1 (refCoef X (refState X Bs k).1 (refState X Bs k).2),
      refCoef X (refState X Bs k).1 (refState X Bs k).2) := rfl

/-- The reference's array before its last reshape: `B Cᵀ` after seven rounds and one more coefficient update. -/
def refOut (X : FVec Ideal S16x512x4096 .f32) (Bs : FVec Ideal S16x512x64 .f32) : FVec Ideal S16x512x4096 .f32 :=
  Host.dotGeneral dot_S16x512x64_S16x4096x64_S16x512x4096_2_2_1_1_0_0 none (refState X Bs 7).1
    (refCoef X (refState X Bs 7).1 (refState X Bs 7).2)

/-- After any number of rounds, the slices of batch element `b` of the program's bases and coefficients are the
    specification's bases and coefficients for the slices of the data and of the starting bases. -/
theorem refState_slice (X : FVec Ideal S16x512x4096 .f32) (Bs : FVec Ideal S16x512x64 .f32) (b : Fin 16) (k : ℕ) :
    sliceB (refState X Bs k).1 b = (state (sliceX X b) (sliceB Bs b) k).1
      ∧ sliceC (refState X Bs k).2 b = (state (sliceX X b) (sliceB Bs b) k).2 := by
  induction k with
  | zero => exact ⟨rfl, funext fun n => funext fun r => refSoft_apply X Bs b n r⟩
  | succ k ih =>
    have hC : sliceC (refCoef X (refState X Bs k).1 (refState X Bs k).2) b
        = coefStep (sliceX X b) (state (sliceX X b) (sliceB Bs b) k).1 (state (sliceX X b) (sliceB Bs b) k).2 := by
      rw [← ih.1, ← ih.2]
      exact funext fun n => funext fun r => refCoef_apply X _ _ b n r
    have hB : sliceB (refBases X (refState X Bs k).1 (refCoef X (refState X Bs k).1 (refState X Bs k).2)) b
        = basesStep (sliceX X b) (sliceB (refState X Bs k).1 b)
            (sliceC (refCoef X (refState X Bs k).1 (refState X Bs k).2) b) :=
      funext fun d => funext fun r => refBases_apply X _ _ b d r
    rw [hC, ih.1] at hB
    exact ⟨hB, hC⟩

/-- THE REFERENCE'S VALUE: at batch element `b`, channel `d`, pixel `n`, the array before the last reshape is the
    specification's result for the slices of batch element `b`. -/
theorem refOut_apply (X : FVec Ideal S16x512x4096 .f32) (Bs : FVec Ideal S16x512x64 .f32) (b : Fin 16) (d : Fin 512) (n : Fin 4096) :
    refOut X Bs (ix3 b d n) = result (fun d n => X (ix3 b d n)) (fun d r => Bs (ix3 b d r)) d n := by
  have hs := refState_slice X Bs b 7
  have hC : sliceC (refCoef X (refState X Bs 7).1 (refState X Bs 7).2) b
      = coefStep (sliceX X b) (state (sliceX X b) (sliceB Bs b) 7).1 (state (sliceX X b) (sliceB Bs b) 7).2 := by
    rw [← hs.1, ← hs.2]
    exact funext fun n => funext fun r => refCoef_apply X _ _ b n r
  refine (dg7_apply (refState X Bs 7).1 (refCoef X (refState X Bs 7).1 (refState X Bs 7).2) b d n).trans ?_
  show ∑ r : Fin 64, sliceB (refState X Bs 7).1 b d r * sliceC (refCoef X (refState X Bs 7).1 (refState X Bs 7).2) b n r = _
  rw [hs.1, hC]
  rfl

end Cert.ReferenceIdeal.RefValue

end
-- ==== Proof.RefValue.lean ====
/-
  The reference program's run, restated through the stages.

  The run of the reference ends with its result buffer at a composed term over the named intermediate arrays: the
  softmax start, then seven times a coefficient update followed by a bases update, one more coefficient update, the
  product `B Cᵀ` and a last reshape. Each named array is the corresponding stage function applied to the earlier
  ones, so the pair (bases, coefficients) after each round is the stage iteration at that round, and the composed
  term is the reshape of the iteration's output.
-/
import proofs.«102053_j12730283065692_2_alg».proof.Proof.Gen.ReferenceIdeal.Run
import proofs.«102053_j12730283065692_2_alg».proof.Proof.RefStages

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

variable (V0 : Valuation τ sig (Elt Ideal))

/-- The pair (bases, coefficients) before the first round: the given bases and the softmax start. -/
theorem round0 : refState (res_main_v0 V0) (V0 (Proc.devRef .tc main_arg1)) 0
    = (V0 (Proc.devRef .tc main_arg1), res_main_v14 V0) := rfl

/-- After round one. -/
theorem round1 : refState (res_main_v0 V0) (V0 (Proc.devRef .tc main_arg1)) 1 = (res_main_v28 V0, res_main_v21 V0) := by
  rw [refState_succ, round0]; rfl
/-- After round two. -/
theorem round2 : refState (res_main_v0 V0) (V0 (Proc.devRef .tc main_arg1)) 2 = (res_main_v42 V0, res_main_v35 V0) := by
  rw [refState_succ, round1]; rfl
/-- After round three. -/
theorem round3 : refState (res_main_v0 V0) (V0 (Proc.devRef .tc main_arg1)) 3 = (res_main_v56 V0, res_main_v49 V0) := by
  rw [refState_succ, round2]; rfl
/-- After round four. -/
theorem round4 : refState (res_main_v0 V0) (V0 (Proc.devRef .tc main_arg1)) 4 = (res_main_v70 V0, res_main_v63 V0) := by
  rw [refState_succ, round3]; rfl
/-- After round five. -/
theorem round5 : refState (res_main_v0 V0) (V0 (Proc.devRef .tc main_arg1)) 5 = (res_main_v84 V0, res_main_v77 V0) := by
  rw [refState_succ, round4]; rfl
/-- After round six. -/
theorem round6 : refState (res_main_v0 V0) (V0 (Proc.devRef .tc main_arg1)) 6 = (res_main_v98 V0, res_main_v91 V0) := by
  rw [refState_succ, round5]; rfl
/-- After round seven. -/
theorem round7 : refState (res_main_v0 V0) (V0 (Proc.devRef .tc main_arg1)) 7 = (res_main_v112 V0, res_main_v105 V0) := by
  rw [refState_succ, round6]; rfl

/-- The run's composed term for the result buffer is the reshape of the stage iteration's output. -/
theorem run_term :
    shapeCast _ (Host.dotGeneral (φ₁ := .f32) (φ₂ := .f32) dot_S16x512x64_S16x4096x64_S16x512x4096_2_2_1_1_0_0 none (res_main_v112 V0) (Host.divf (mulf (res_main_v105 V0) (Host.dotGeneral (φ₁ := .f32) (φ₂ := .f32) dot_S16x512x4096_S16x512x64_S16x4096x64_1_1_2_2_0_0 none (res_main_v0 V0) (res_main_v112 V0))) (addf (Host.dotGeneral (φ₁ := .f32) (φ₂ := .f32) dot_S16x4096x64_S16x64x64_S16x4096x64_2_1_1_2_0_0 none (res_main_v105 V0) (Host.dotGeneral (φ₁ := .f32) (φ₂ := .f32) dot_S16x512x64_S16x512x64_S16x64x64_1_1_2_2_0_0 none (res_main_v112 V0) (res_main_v112 V0))) (broadcastInDim S16x4096x64 ![] bcast_S_S16x4096x64 (constant S_ .f32 0x358637BD#32))))) shapeCasts_S16x512x4096_S16x512x64x64
      = shapeCast _ (refOut (res_main_v0 V0) (V0 (Proc.devRef .tc main_arg1))) shapeCasts_S16x512x4096_S16x512x64x64 := by
  unfold refOut
  rw [round7]
  rfl

/-- The run, restated: every weakly fair execution of the reference terminates with its result buffer at the reshape
    of the stage iteration's output on the launch contents, the arguments unchanged. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121)
          = shapeCast _ (refOut (res_main_v0 (launchContents m c)) (launchContents m c (Proc.devRef .tc main_arg1)))
              shapeCasts_S16x512x4096_S16x512x64x64
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c).1.trans (run_term (launchContents m c)), (h c).2⟩) (run m ρ)

end Cert.ReferenceIdeal.RefValue

end
-- ==== Proof.lean ====
/-
  A batched non-negative matrix factorisation by multiplicative updates, computed by a kernel that keeps its state
  transposed, against the plain reference: both programs end with the same array of extended reals.

  Per batch element the data `X` (512 channels by 4096 pixels) is factored as bases `B` (512 by 64) times
  coefficients `C` (4096 by 64) transposed: the coefficients start as the softmax of `Xᵀ B` over the components; seven
  rounds update the coefficients, `C ← C ∘ (Xᵀ B) / (C (Bᵀ B) + ε)`, and then the bases with the new coefficients,
  `B ← B ∘ (X C) / (B (Cᵀ C) + ε)`; after one more coefficient update the result is `B Cᵀ` (Proof/NmfSpec.lean).

  The kernel runs one batch element per grid point.  It stores `Bᵀ` and `Cᵀ` in two scratch buffers, each store
  overwriting its buffer whole, so the buffers after the counted loop hold the seven-fold iteration of one trip's two
  stores (Proof/KernelRun.lean); read with the two indices exchanged, each store's value is one step of the
  specification, the products taken in the other order, which on the extended reals is commutativity of the product
  alone (Proof/KernelPayload.lean, Proof/KernelState.lean).  The sixteen output blocks tile the output array
  (Proof/KernelValue.lean).  The reference computes the same steps batched, each contraction a sum over the
  contracted coordinate (Proof/RefContract.lean, Proof/RefStages.lean, Proof/RefValue.lean).  Both programs re-lay the
  data from four axes to three before, and the result from three axes to four after; the kernel's change of float
  format is the identity on the extended reals.  No step uses that the inputs are finite.
-/
import proofs.«102053_j12730283065692_2_alg».proof.Defs
import proofs.«102053_j12730283065692_2_alg».proof.Proof.Gen.Kernel
import proofs.«102053_j12730283065692_2_alg».proof.Proof.Gen.Kernel.Skeleton
import proofs.«102053_j12730283065692_2_alg».proof.Proof.Gen.Kernel.Loops
import proofs.«102053_j12730283065692_2_alg».proof.Proof.Gen.Kernel.Launch
import proofs.«102053_j12730283065692_2_alg».proof.Proof.Gen.Kernel.Points
import proofs.«102053_j12730283065692_2_alg».proof.Proof.Gen.Kernel.Frame
import proofs.«102053_j12730283065692_2_alg».proof.Proof.Gen.KernelIdeal
import proofs.«102053_j12730283065692_2_alg».proof.Proof.Gen.KernelIdeal.Skeleton
import proofs.«102053_j12730283065692_2_alg».proof.Proof.Gen.KernelIdeal.Loops
import proofs.«102053_j12730283065692_2_alg».proof.Proof.Gen.KernelIdeal.Launch
import proofs.«102053_j12730283065692_2_alg».proof.Proof.Gen.KernelIdeal.Points
import proofs.«102053_j12730283065692_2_alg».proof.Proof.Gen.KernelIdeal.Frame
import proofs.«102053_j12730283065692_2_alg».proof.Proof.Gen.ReferenceIdeal
import proofs.«102053_j12730283065692_2_alg».proof.Proof.Gen.Pre_finite_inputs
import proofs.«102053_j12730283065692_2_alg».proof.Proof.Gen.ReferenceIdeal.Run
import proofs.«102053_j12730283065692_2_alg».proof.Proof.KernelValue
import proofs.«102053_j12730283065692_2_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The kernel over the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's array before its last re-laying is the result array of the re-laid data and the bases: at
    (b, d, n) both are the specification's result for batch element `b`. -/
theorem refOut_eq_G (X : FVec Ideal Cert.ReferenceIdeal.S16x512x4096 .f32) (Bs : FVec Ideal Cert.ReferenceIdeal.S16x512x64 .f32) :
    Cert.ReferenceIdeal.RefValue.refOut X Bs = Cert.KernelIdeal.ArrValue.G X Bs := by
  funext j
  obtain ⟨b, d, n, rfl⟩ : ∃ (b : Fin 16) (d : Fin 512) (n : Fin 4096), j = ix3 b d n := ⟨j 0, j 1, j 2, eq_ix3 j⟩
  rw [Cert.ReferenceIdeal.RefValue.refOut_apply]
  rfl

/-- From memories agreeing on the arguments the two programs end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.RefValue.run_refOut m' ρ')
  rw [refOut_eq_G]
  unfold Cert.ReferenceIdeal.Value.res_main_v0
  show shapeCast _ (Cert.KernelIdeal.ArrValue.G (shapeCast _ (m' ((c.tc : Thread Cert.ReferenceIdeal.nD Cert.ReferenceIdeal.τ).loc Cert.ReferenceIdeal.main_arg0)) _)
      (m' ((c.tc : Thread Cert.ReferenceIdeal.nD Cert.ReferenceIdeal.τ).loc Cert.ReferenceIdeal.main_arg1))) _ = _
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
